-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000000x3 : Shape := ⟨2, ![16000000, 3]⟩
abbrev S16000000 : Shape := ⟨1, ![16000000]⟩
abbrev S_ : Shape := ⟨0, ![]⟩

class Facts : Prop where
  bcast_S_S16000000x3 : S_.BroadcastsInDim S16000000x3 (![] : Fin 0 → Fin S16000000x3.rank)
  reducesTo_S16000000x3_S_d0_1 : S16000000x3.ReducesTo [0, 1] S_
  h_S_ : 0 < S_.numel
  bcast_S_S16000000 : S_.BroadcastsInDim S16000000 (![] : Fin 0 → Fin S16000000.rank)
  reducesTo_S16000000_S_d0 : S16000000.ReducesTo [0] S_

variable [Facts]

def fn {F : FTy → Type} [FloatOps F] (main_arg0 : FVec F S16000000x3 .f32) (main_arg1 : FVec F S16000000x3 .f32) (main_arg2 : FVec F S16000000 .f32) : IVec S_ 1 :=
  let main_v0 : FVec F S16000000x3 .f32 := Host.absf main_arg0
  let main_cst : FVec F S_ .f32 := constant S_ .f32 0x7F800000#32
  let main_v1 : FVec F S16000000x3 .f32 := broadcastInDim S16000000x3 ![] bcast_S_S16000000x3 main_cst
  let main_v2 : IVec S16000000x3 1 := cmpf .olt main_v0 main_v1
  let main_c : IVec S_ 1 := constantI S_ 1 1#1
  let main_v3 : IVec S_ 1 := (fun x v => Host.reduce IntOp.andi x v reducesTo_S16000000x3_S_d0_1 h_S_) main_v2 main_c
  let main_v4 : FVec F S16000000x3 .f32 := Host.absf main_arg1
  let main_cst_0 : FVec F S_ .f32 := constant S_ .f32 0x7F800000#32
  let main_v5 : FVec F S16000000x3 .f32 := broadcastInDim S16000000x3 ![] bcast_S_S16000000x3 main_cst_0
  let main_v6 : IVec S16000000x3 1 := cmpf .olt main_v4 main_v5
  let main_c_1 : IVec S_ 1 := constantI S_ 1 1#1
  let main_v7 : IVec S_ 1 := (fun x v => Host.reduce IntOp.andi x v reducesTo_S16000000x3_S_d0_1 h_S_) main_v6 main_c_1
  let main_v8 : IVec S_ 1 := andi main_v3 main_v7
  let main_v9 : FVec F S16000000 .f32 := Host.absf main_arg2
  let main_cst_2 : FVec F S_ .f32 := constant S_ .f32 0x7F800000#32
  let main_v10 : FVec F S16000000 .f32 := broadcastInDim S16000000 ![] bcast_S_S16000000 main_cst_2
  let main_v11 : IVec S16000000 1 := cmpf .olt main_v9 main_v10
  let main_c_3 : IVec S_ 1 := constantI S_ 1 1#1
  let main_v12 : IVec S_ 1 := (fun x v => Host.reduce IntOp.andi x v reducesTo_S16000000_S_d0 h_S_) main_v11 main_c_3
  let main_v13 : IVec S_ 1 := andi main_v8 main_v12
  main_v13
-- ==== Kernel.lean ====
abbrev S16000000x3 : Shape := ⟨2, ![16000000, 3]⟩
abbrev S16000000 : Shape := ⟨1, ![16000000]⟩
abbrev S16000000x1 : Shape := ⟨2, ![16000000, 1]⟩
abbrev S1x16000000 : Shape := ⟨2, ![1, 16000000]⟩
abbrev S56x7 : Shape := ⟨2, ![56, 7]⟩
abbrev S1x25600 : Shape := ⟨2, ![1, 25600]⟩
abbrev S25600 : Shape := ⟨1, ![25600]⟩
abbrev S7x25600 : Shape := ⟨2, ![7, 25600]⟩
abbrev S56x25600 : Shape := ⟨2, ![56, 25600]⟩
abbrev S50x7 : Shape := ⟨2, ![50, 7]⟩
abbrev S50x1 : Shape := ⟨2, ![50, 1]⟩
abbrev S50 : Shape := ⟨1, ![50]⟩
abbrev S50x6 : Shape := ⟨2, ![50, 6]⟩
abbrev S1x50 : Shape := ⟨2, ![1, 50]⟩
abbrev S6x50 : Shape := ⟨2, ![6, 50]⟩

abbrev nBuf : Space → Nat
  | .hbm => 55
  | .vmem => 13
  | .smem => 0
  | _ => 0

abbrev bufTy : (tb : Table) → Fin (tcTables nBuf tb) → BufTy
  | .hbm, ⟨0, _⟩ => ⟨S16000000x3, .f32⟩
  | .hbm, ⟨1, _⟩ => ⟨S16000000x3, .f32⟩
  | .hbm, ⟨2, _⟩ => ⟨S16000000, .f32⟩
  | .hbm, ⟨3, _⟩ => ⟨S16000000x1, .f32⟩
  | .hbm, ⟨4, _⟩ => ⟨S16000000, .f32⟩
  | .hbm, ⟨5, _⟩ => ⟨S1x16000000, .f32⟩
  | .hbm, ⟨6, _⟩ => ⟨S16000000x1, .f32⟩
  | .hbm, ⟨7, _⟩ => ⟨S16000000, .f32⟩
  | .hbm, ⟨8, _⟩ => ⟨S1x16000000, .f32⟩
  | .hbm, ⟨9, _⟩ => ⟨S16000000x1, .f32⟩
  | .hbm, ⟨10, _⟩ => ⟨S16000000, .f32⟩
  | .hbm, ⟨11, _⟩ => ⟨S1x16000000, .f32⟩
  | .hbm, ⟨12, _⟩ => ⟨S16000000x1, .f32⟩
  | .hbm, ⟨13, _⟩ => ⟨S16000000, .f32⟩
  | .hbm, ⟨14, _⟩ => ⟨S1x16000000, .f32⟩
  | .hbm, ⟨15, _⟩ => ⟨S16000000x1, .f32⟩
  | .hbm, ⟨16, _⟩ => ⟨S16000000, .f32⟩
  | .hbm, ⟨17, _⟩ => ⟨S1x16000000, .f32⟩
  | .hbm, ⟨18, _⟩ => ⟨S1x16000000, .f32⟩
  | .hbm, ⟨19, _⟩ => ⟨S56x7, .f32⟩
  | .hbm, ⟨20, _⟩ => ⟨S50x7, .f32⟩
  | .hbm, ⟨21, _⟩ => ⟨S50x1, .f32⟩
  | .hbm, ⟨22, _⟩ => ⟨S50, .f32⟩
  | .hbm, ⟨23, _⟩ => ⟨S50x6, .f32⟩
  | .hbm, ⟨24, _⟩ => ⟨S50x1, .f32⟩
  | .hbm, ⟨25, _⟩ => ⟨S50x6, .f32⟩
  | .hbm, ⟨26, _⟩ => ⟨S50x6, .f32⟩
  | .hbm, ⟨27, _⟩ => ⟨S50x1, .f32⟩
  | .hbm, ⟨28, _⟩ => ⟨S50, .f32⟩
  | .hbm, ⟨29, _⟩ => ⟨S50x1, .f32⟩
  | .hbm, ⟨30, _⟩ => ⟨S50, .f32⟩
  | .hbm, ⟨31, _⟩ => ⟨S50x1, .f32⟩
  | .hbm, ⟨32, _⟩ => ⟨S50, .f32⟩
  | .hbm, ⟨33, _⟩ => ⟨S50x1, .f32⟩
  | .hbm, ⟨34, _⟩ => ⟨S50, .f32⟩
  | .hbm, ⟨35, _⟩ => ⟨S50x1, .f32⟩
  | .hbm, ⟨36, _⟩ => ⟨S50, .f32⟩
  | .hbm, ⟨37, _⟩ => ⟨S50x1, .f32⟩
  | .hbm, ⟨38, _⟩ => ⟨S50, .f32⟩
  | .hbm, ⟨39, _⟩ => ⟨S50, .f32⟩
  | .hbm, ⟨40, _⟩ => ⟨S50, .f32⟩
  | .hbm, ⟨41, _⟩ => ⟨S50, .f32⟩
  | .hbm, ⟨42, _⟩ => ⟨S50, .f32⟩
  | .hbm, ⟨43, _⟩ => ⟨S50, .f32⟩
  | .hbm, ⟨44, _⟩ => ⟨S50, .f32⟩
  | .hbm, ⟨45, _⟩ => ⟨S50, .f32⟩
  | .hbm, ⟨46, _⟩ => ⟨S50, .f32⟩
  | .hbm, ⟨47, _⟩ => ⟨S50, .f32⟩
  | .hbm, ⟨48, _⟩ => ⟨S1x50, .f32⟩
  | .hbm, ⟨49, _⟩ => ⟨S1x50, .f32⟩
  | .hbm, ⟨50, _⟩ => ⟨S1x50, .f32⟩
  | .hbm, ⟨51, _⟩ => ⟨S1x50, .f32⟩
  | .hbm, ⟨52, _⟩ => ⟨S1x50, .f32⟩
  | .hbm, ⟨53, _⟩ => ⟨S1x50, .f32⟩
  | .hbm, ⟨54, _⟩ => ⟨S6x50, .f32⟩
  | .local _ .vmem, ⟨0, _⟩ => ⟨S1x25600, .f32⟩
  | .local _ .vmem, ⟨1, _⟩ => ⟨S1x25600, .f32⟩
  | .local _ .vmem, ⟨2, _⟩ => ⟨S1x25600, .f32⟩
  | .local _ .vmem, ⟨3, _⟩ => ⟨S1x25600, .f32⟩
  | .local _ .vmem, ⟨4, _⟩ => ⟨S1x25600, .f32⟩
  | .local _ .vmem, ⟨5, _⟩ => ⟨S1x25600, .f32⟩
  | .local _ .vmem, ⟨6, _⟩ => ⟨S1x25600, .f32⟩
  | .local _ .vmem, ⟨7, _⟩ => ⟨S1x25600, .f32⟩
  | .local _ .vmem, ⟨8, _⟩ => ⟨S1x25600, .f32⟩
  | .local _ .vmem, ⟨9, _⟩ => ⟨S1x25600, .f32⟩
  | .local _ .vmem, ⟨10, _⟩ => ⟨S1x25600, .f32⟩
  | .local _ .vmem, ⟨11, _⟩ => ⟨S1x25600, .f32⟩
  | .local _ .vmem, ⟨12, _⟩ => ⟨S56x7, .f32⟩
  | _, _ => ⟨S16000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x25600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x25600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S56x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S16000000x3_S16000000x1_0_0 : S16000000x3.Slices ![0, 0] S16000000x1
  shapeCasts_S16000000x1_S16000000 : S16000000x1.ShapeCasts S16000000
  shapeCasts_S16000000_S1x16000000 : S16000000.ShapeCasts S1x16000000
  slices_S16000000x3_S16000000x1_0_1 : S16000000x3.Slices ![0, 1] S16000000x1
  slices_S16000000x3_S16000000x1_0_2 : S16000000x3.Slices ![0, 2] S16000000x1
  inb_S56x7_S56x7_0_0 : ∀ a, (![0, 0] : Fin 2 → Nat) a + S56x7.size a ≤ S56x7.size a
  h_S56x7 : 0 < S56x7.numel
  inb_S1x25600_S1x25600_0_0 : ∀ a, (![0, 0] : Fin 2 → Nat) a + S1x25600.size a ≤ S1x25600.size a
  h_S1x25600 : 0 < S1x25600.numel
  shapeCasts_S1x25600_S1x25600 : S1x25600.ShapeCasts S1x25600
  shapeCasts_S1x25600_S25600 : S1x25600.ShapeCasts S25600
  shapeCasts_S25600_S1x25600 : S25600.ShapeCasts S1x25600
  concatenates_S1x25600_S1x25600_S1x25600_S1x25600_S1x25600_S1x25600_S1x25600_S7x25600_d0 : Shape.Concatenates [S1x25600, S1x25600, S1x25600, S1x25600, S1x25600, S1x25600, S1x25600] S7x25600 0
  iota_S56x25600_d0_w32 : S56x25600.Iotas .tc 32 [0]
  broadcasts_S1x25600_S56x25600 : S1x25600.Broadcasts S56x25600
  natLt_1_32 : 1 < 32
  shapeCasts_S56x7_S56x7 : S56x7.ShapeCasts S56x7
  slices_S56x7_S50x7_0_0 : S56x7.Slices ![0, 0] S50x7
  slices_S50x7_S50x1_0_0 : S50x7.Slices ![0, 0] S50x1
  shapeCasts_S50x1_S50 : S50x1.ShapeCasts S50
  slices_S50x7_S50x6_0_1 : S50x7.Slices ![0, 1] S50x6
  bcast_S50_S50x1_0 : S50.BroadcastsInDim S50x1 (![0] : Fin 1 → Fin S50x1.rank)
  bcast_S50x1_S50x6_0_1 : S50x1.BroadcastsInDim S50x6 (![0, 1] : Fin 2 → Fin S50x6.rank)
  slices_S50x6_S50x1_0_0 : S50x6.Slices ![0, 0] S50x1
  slices_S50x6_S50x1_0_1 : S50x6.Slices ![0, 1] S50x1
  slices_S50x6_S50x1_0_2 : S50x6.Slices ![0, 2] S50x1
  slices_S50x6_S50x1_0_3 : S50x6.Slices ![0, 3] S50x1
  slices_S50x6_S50x1_0_4 : S50x6.Slices ![0, 4] S50x1
  slices_S50x6_S50x1_0_5 : S50x6.Slices ![0, 5] S50x1
  bcast_S50_S1x50_1 : S50.BroadcastsInDim S1x50 (![1] : Fin 1 → Fin S1x50.rank)
  concatenates_S1x50_S1x50_S1x50_S1x50_S1x50_S1x50_S6x50_d0 : Shape.Concatenates [S1x50, S1x50, S1x50, S1x50, S1x50, S1x50] S6x50 0
  dot_S56x25600_S7x25600_S56x7_1_1_0_0_n_n_wf : DotDims.WF S56x25600 S7x25600 S56x7 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25600.size a ≤ S1x16000000.size a
  hwx0_0 : ∀ i : grid0.Coords, EltTy.bits .f32 = 32 ∨ (Rect.block (s := S1x16000000) S1x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25600.size a ≤ S1x16000000.size a
  hwx0_1 : ∀ i : grid0.Coords, EltTy.bits .f32 = 32 ∨ (Rect.block (s := S1x16000000) S1x25600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25600.size a ≤ S1x16000000.size a
  hwx0_2 : ∀ i : grid0.Coords, EltTy.bits .f32 = 32 ∨ (Rect.block (s := S1x16000000) S1x25600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25600.size a ≤ S1x16000000.size a
  hwx0_3 : ∀ i : grid0.Coords, EltTy.bits .f32 = 32 ∨ (Rect.block (s := S1x16000000) S1x25600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x25600.size a ≤ S1x16000000.size a
  hwx0_4 : ∀ i : grid0.Coords, EltTy.bits .f32 = 32 ∨ (Rect.block (s := S1x16000000) S1x25600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x25600.size a ≤ S1x16000000.size a
  hwx0_5 : ∀ i : grid0.Coords, EltTy.bits .f32 = 32 ∨ (Rect.block (s := S1x16000000) S1x25600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S56x7.size a ≤ S56x7.size a
  hwx0_6 : ∀ i : grid0.Coords, EltTy.bits .f32 = 32 ∨ (Rect.block (s := S56x7) S56x7.size (cc0_transform_6 i) (hinb0_6 i)).WholeWords (EltTy.packing .f32)

variable [Facts₀]

def dot_S56x25600_S7x25600_S56x7_1_1_0_0_n_n : DotDims S56x25600 S7x25600 S56x7 where
  lhsContracting := [1]
  rhsContracting := [1]
  lhsNonContracting := [0]
  rhsNonContracting := [0]
  lhsBatch := []
  rhsBatch := []
  wf := dot_S56x25600_S7x25600_S56x7_1_1_0_0_n_n_wf

abbrev win0_0 : Pipeline.Window sig grid0 :=
  Pipeline.Window.ofSpec (Memref.whole main_v2) S1x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x25600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x25600.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x25600.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x25600.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S56x7.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16000000x3 : Shape := ⟨2, ![16000000, 3]⟩
abbrev S16000000 : Shape := ⟨1, ![16000000]⟩
abbrev S16000000x1 : Shape := ⟨2, ![16000000, 1]⟩
abbrev S_ : Shape := ⟨0, ![]⟩
abbrev S16000000x7 : Shape := ⟨2, ![16000000, 7]⟩
abbrev S50x7 : Shape := ⟨2, ![50, 7]⟩
abbrev S50x1 : Shape := ⟨2, ![50, 1]⟩
abbrev S50 : Shape := ⟨1, ![50]⟩
abbrev S50x6 : Shape := ⟨2, ![50, 6]⟩
abbrev S1x50 : Shape := ⟨2, ![1, 50]⟩
abbrev S6x50 : Shape := ⟨2, ![6, 50]⟩

abbrev nBuf : Space → Nat
  | .hbm => 102
  | .vmem => 0
  | .smem => 0
  | _ => 0

abbrev bufTy : (tb : Table) → Fin (tcTables nBuf tb) → BufTy
  | .hbm, ⟨0, _⟩ => ⟨S16000000x3, .f32⟩
  | .hbm, ⟨1, _⟩ => ⟨S16000000x3, .f32⟩
  | .hbm, ⟨2, _⟩ => ⟨S16000000, .f32⟩
  | .hbm, ⟨3, _⟩ => ⟨S16000000x1, .f32⟩
  | .hbm, ⟨4, _⟩ => ⟨S16000000, .f32⟩
  | .hbm, ⟨5, _⟩ => ⟨S16000000x1, .f32⟩
  | .hbm, ⟨6, _⟩ => ⟨S16000000, .f32⟩
  | .hbm, ⟨7, _⟩ => ⟨S16000000x1, .f32⟩
  | .hbm, ⟨8, _⟩ => ⟨S16000000, .f32⟩
  | .hbm, ⟨9, _⟩ => ⟨S16000000x1, .f32⟩
  | .hbm, ⟨10, _⟩ => ⟨S16000000, .f32⟩
  | .hbm, ⟨11, _⟩ => ⟨S16000000x1, .f32⟩
  | .hbm, ⟨12, _⟩ => ⟨S16000000, .f32⟩
  | .hbm, ⟨13, _⟩ => ⟨S16000000, .f32⟩
  | .hbm, ⟨14, _⟩ => ⟨S16000000, .f32⟩
  | .hbm, ⟨15, _⟩ => ⟨S16000000, .f32⟩
  | .hbm, ⟨16, _⟩ => ⟨S16000000, .f32⟩
  | .hbm, ⟨17, _⟩ => ⟨S_, .f32⟩
  | .hbm, ⟨18, _⟩ => ⟨S16000000, .f32⟩
  | .hbm, ⟨19, _⟩ => ⟨S16000000, .f32⟩
  | .hbm, ⟨20, _⟩ => ⟨S_, .f32⟩
  | .hbm, ⟨21, _⟩ => ⟨S16000000, .f32⟩
  | .hbm, ⟨22, _⟩ => ⟨S16000000, .f32⟩
  | .hbm, ⟨23, _⟩ => ⟨S16000000, .f32⟩
  | .hbm, ⟨24, _⟩ => ⟨S16000000, .i32⟩
  | .hbm, ⟨25, _⟩ => ⟨S_, .i32⟩
  | .hbm, ⟨26, _⟩ => ⟨S16000000, .i32⟩
  | .hbm, ⟨27, _⟩ => ⟨S16000000, .i1⟩
  | .hbm, ⟨28, _⟩ => ⟨S_, .i32⟩
  | .hbm, ⟨29, _⟩ => ⟨S16000000, .i32⟩
  | .hbm, ⟨30, _⟩ => ⟨S16000000, .i1⟩
  | .hbm, ⟨31, _⟩ => ⟨S16000000, .i1⟩
  | .hbm, ⟨32, _⟩ => ⟨S_, .i32⟩
  | .hbm, ⟨33, _⟩ => ⟨S_, .i32⟩
  | .hbm, ⟨34, _⟩ => ⟨S16000000, .i32⟩
  | .hbm, ⟨35, _⟩ => ⟨S16000000, .i32⟩
  | .hbm, ⟨36, _⟩ => ⟨S_, .f32⟩
  | .hbm, ⟨37, _⟩ => ⟨S_, .f32⟩
  | .hbm, ⟨38, _⟩ => ⟨S16000000, .f32⟩
  | .hbm, ⟨39, _⟩ => ⟨S16000000, .f32⟩
  | .hbm, ⟨40, _⟩ => ⟨S16000000, .f32⟩
  | .hbm, ⟨41, _⟩ => ⟨S16000000, .f32⟩
  | .hbm, ⟨42, _⟩ => ⟨S16000000, .f32⟩
  | .hbm, ⟨43, _⟩ => ⟨S16000000, .f32⟩
  | .hbm, ⟨44, _⟩ => ⟨S16000000, .f32⟩
  | .hbm, ⟨45, _⟩ => ⟨S16000000, .f32⟩
  | .hbm, ⟨46, _⟩ => ⟨S16000000, .f32⟩
  | .hbm, ⟨47, _⟩ => ⟨S16000000, .f32⟩
  | .hbm, ⟨48, _⟩ => ⟨S_, .f32⟩
  | .hbm, ⟨49, _⟩ => ⟨S16000000, .f32⟩
  | .hbm, ⟨50, _⟩ => ⟨S16000000, .f32⟩
  | .hbm, ⟨51, _⟩ => ⟨S16000000, .f32⟩
  | .hbm, ⟨52, _⟩ => ⟨S16000000, .f32⟩
  | .hbm, ⟨53, _⟩ => ⟨S16000000x1, .f32⟩
  | .hbm, ⟨54, _⟩ => ⟨S16000000x1, .f32⟩
  | .hbm, ⟨55, _⟩ => ⟨S16000000x1, .f32⟩
  | .hbm, ⟨56, _⟩ => ⟨S16000000x1, .f32⟩
  | .hbm, ⟨57, _⟩ => ⟨S16000000x1, .f32⟩
  | .hbm, ⟨58, _⟩ => ⟨S16000000x1, .f32⟩
  | .hbm, ⟨59, _⟩ => ⟨S16000000x1, .f32⟩
  | .hbm, ⟨60, _⟩ => ⟨S16000000x7, .f32⟩
  | .hbm, ⟨61, _⟩ => ⟨S16000000x1, .f32⟩
  | .hbm, ⟨62, _⟩ => ⟨S16000000x7, .f32⟩
  | .hbm, ⟨63, _⟩ => ⟨S16000000x7, .f32⟩
  | .hbm, ⟨64, _⟩ => ⟨S_, .f32⟩
  | .hbm, ⟨65, _⟩ => ⟨S50x7, .f32⟩
  | .hbm, ⟨66, _⟩ => ⟨S16000000x1, .i32⟩
  | .hbm, ⟨67, _⟩ => ⟨S50x7, .f32⟩
  | .hbm, ⟨68, _⟩ => ⟨S50x1, .f32⟩
  | .hbm, ⟨69, _⟩ => ⟨S50, .f32⟩
  | .hbm, ⟨70, _⟩ => ⟨S50x6, .f32⟩
  | .hbm, ⟨71, _⟩ => ⟨S50x1, .f32⟩
  | .hbm, ⟨72, _⟩ => ⟨S50x6, .f32⟩
  | .hbm, ⟨73, _⟩ => ⟨S50x6, .f32⟩
  | .hbm, ⟨74, _⟩ => ⟨S50x1, .f32⟩
  | .hbm, ⟨75, _⟩ => ⟨S50, .f32⟩
  | .hbm, ⟨76, _⟩ => ⟨S50x1, .f32⟩
  | .hbm, ⟨77, _⟩ => ⟨S50, .f32⟩
  | .hbm, ⟨78, _⟩ => ⟨S50x1, .f32⟩
  | .hbm, ⟨79, _⟩ => ⟨S50, .f32⟩
  | .hbm, ⟨80, _⟩ => ⟨S50x1, .f32⟩
  | .hbm, ⟨81, _⟩ => ⟨S50, .f32⟩
  | .hbm, ⟨82, _⟩ => ⟨S50x1, .f32⟩
  | .hbm, ⟨83, _⟩ => ⟨S50, .f32⟩
  | .hbm, ⟨84, _⟩ => ⟨S50x1, .f32⟩
  | .hbm, ⟨85, _⟩ => ⟨S50, .f32⟩
  | .hbm, ⟨86, _⟩ => ⟨S50, .f32⟩
  | .hbm, ⟨87, _⟩ => ⟨S50, .f32⟩
  | .hbm, ⟨88, _⟩ => ⟨S50, .f32⟩
  | .hbm, ⟨89, _⟩ => ⟨S50, .f32⟩
  | .hbm, ⟨90, _⟩ => ⟨S50, .f32⟩
  | .hbm, ⟨91, _⟩ => ⟨S50, .f32⟩
  | .hbm, ⟨92, _⟩ => ⟨S50, .f32⟩
  | .hbm, ⟨93, _⟩ => ⟨S50, .f32⟩
  | .hbm, ⟨94, _⟩ => ⟨S50, .f32⟩
  | .hbm, ⟨95, _⟩ => ⟨S1x50, .f32⟩
  | .hbm, ⟨96, _⟩ => ⟨S1x50, .f32⟩
  | .hbm, ⟨97, _⟩ => ⟨S1x50, .f32⟩
  | .hbm, ⟨98, _⟩ => ⟨S1x50, .f32⟩
  | .hbm, ⟨99, _⟩ => ⟨S1x50, .f32⟩
  | .hbm, ⟨100, _⟩ => ⟨S1x50, .f32⟩
  | .hbm, ⟨101, _⟩ => ⟨S6x50, .f32⟩
  | _, _ => ⟨S16000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩

abbrev nD : Nat := 1
abbrev τ : Topo := Topo.v7x

variable {F : FTy → Type} [FloatOps F]

class Facts₀ : Prop where
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x1_S16000000x1_S16000000x1_S16000000x1_S16000000x1_S16000000x7_d1 : Shape.Concatenates [S16000000x1, S16000000x1, S16000000x1, S16000000x1, S16000000x1, S16000000x1, S16000000x1] S16000000x7 1
  bcast_S16000000x1_S16000000x7_0_1 : S16000000x1.BroadcastsInDim S16000000x7 (![0, 1] : Fin 2 → Fin S16000000x7.rank)
  bcast_S_S50x7 : S_.BroadcastsInDim S50x7 (![] : Fin 0 → Fin S50x7.rank)
  slices_S50x7_S50x1_0_0 : S50x7.Slices ![0, 0] S50x1
  shapeCasts_S50x1_S50 : S50x1.ShapeCasts S50
  slices_S50x7_S50x6_0_1 : S50x7.Slices ![0, 1] S50x6
  bcast_S50_S50x1_0 : S50.BroadcastsInDim S50x1 (![0] : Fin 1 → Fin S50x1.rank)
  bcast_S50x1_S50x6_0_1 : S50x1.BroadcastsInDim S50x6 (![0, 1] : Fin 2 → Fin S50x6.rank)
  slices_S50x6_S50x1_0_0 : S50x6.Slices ![0, 0] S50x1
  slices_S50x6_S50x1_0_1 : S50x6.Slices ![0, 1] S50x1
  slices_S50x6_S50x1_0_2 : S50x6.Slices ![0, 2] S50x1
  slices_S50x6_S50x1_0_3 : S50x6.Slices ![0, 3] S50x1
  slices_S50x6_S50x1_0_4 : S50x6.Slices ![0, 4] S50x1
  slices_S50x6_S50x1_0_5 : S50x6.Slices ![0, 5] S50x1
  bcast_S50_S1x50_1 : S50.BroadcastsInDim S1x50 (![1] : Fin 1 → Fin S1x50.rank)
  concatenates_S1x50_S1x50_S1x50_S1x50_S1x50_S1x50_S6x50_d0 : Shape.Concatenates [S1x50, S1x50, S1x50, S1x50, S1x50, S1x50] S6x50 0
  scatter_S50x7_S16000000x1_S16000000x7_1_0_0_1_wf : ScatterDims.WF S50x7 S16000000x1 S16000000x7 [1] [0] [0] 1

variable [Facts₀]

def scatter_S50x7_S16000000x1_S16000000x7_1_0_0_1 : ScatterDims S50x7 S16000000x1 S16000000x7 where
  updateWindowDims := [1]
  insertedWindowDims := [0]
  scatterDimsToOperandDims := [0]
  indexVectorDim := 1
  wf := scatter_S50x7_S16000000x1_S16000000x7_1_0_0_1_wf

class Facts : Prop extends Facts₀ where

variable [Facts]
-- ==== Proof.Words.RegionKit.lean ====
/-
  The region of the histogram kernel, as @main meets it. @main is sixteen slicing and reshaping lines (the five
  coordinate and velocity columns and the masses, each laid out as one row of 16,000,000), the pipelined region over
  625 tiles of 25,600 particles, and thirty-five lines that turn the 56 x 7 table of bin sums into the 6 x 50 result.
  This module states what the region is entered with (the arrays after the first sixteen lines), that @main is those
  lines, the region, and the later lines, that the later lines touch only unscoped buffers and write no window's
  array, that the three arguments are written by no line, what block of its array each window holds at a tile, and
  at which tile the body's one branch (clear the table first) is taken: the first tile only.
-/
import proofs.«119832_j4741643894785_1_alg».proof.Proof.Gen.Kernel.Launch
import proofs.«119832_j4741643894785_1_alg».proof.Proof.Gen.Kernel.Skeleton
import proofs.«119832_j4741643894785_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch memory after the sixteen lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- None of the sixteen slicing and reshaping lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 0 is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the sixteen slicing and reshaping lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 1 is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the sixteen slicing and reshaping lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 2 is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place: the window is fetched whole at every point, uncut, never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place: the window is fetched whole at every point, uncut, never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place: the window is fetched whole at every point, uncut, never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place: the window is fetched whole at every point, uncut, never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place: the window is fetched whole at every point, uncut, never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place: the window is fetched whole at every point, uncut, never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run that ends with every bypassing buffer as the later lines leave it ends with the three arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The condition under which the body first clears the table of bin sums, from the tile's coordinate. -/
abbrev cond0_0 (i : grid0.Coords) : Prop := (Scalar.cmpi .ne (Scalar.extui (Scalar.cmpi .eq (BitVec.ofNat 32 (i 0).val) 0#32)) 0#32) = 1#1
/-- It holds at the first tile only. -/
theorem hcond0_0 : ∀ t : Fin cfg0.N, cond0_0 (grid0.coords t) ↔ t.val % 625 = 0 :=
  (by decide +kernel : ∀ t : Fin grid0.N, cond0_0 (grid0.coords t) ↔ t.val % 625 = 0)

/-! ## The staging memrefs at a tile -/

/-- The one staging buffer of the table of bin sums, through which its contents are stated. -/
abbrev VO0_6 : View sig .tc .vmem S56x7 .f32 := (Memref.whole cc0_stg6_0 : Memref sig .tc .vmem S56x7 .f32).view
abbrev ms0_0 (t : Fin cfg0.N) : Memref sig .tc .vmem S1x25600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x25600 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x25600 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x25600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x25600 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x25600 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x7 .f32 := win0_6.stage (cfg0.slots t 6)
abbrev hs0_6 (t : Fin cfg0.N) : (ms0_6 t).IsWhole := hstage0_6 ((cfg0.slots t 6).cast nbuf0_6)

end Cert.Kernel.Hist

end
-- ==== Proof.Words.RunFirst.lean ====
/-
  The body at the first tile. The branch is taken: the table of bin sums is cleared, the six rows of the tile are
  loaded, and the table is read back and stored again with the tile's contribution added. On whole staging memrefs,
  the six inputs at their contents and the table at anything, the body runs to its end with the inputs as they
  were and the table holding the pieces its two stores wrote, last first; the pieces are found by running the body.
-/
import proofs.«119832_j4741643894785_1_alg».proof.Proof.Words.RegionKit

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the clearing branch is taken: the pieces the table ends with, and the triple. -/
noncomputable def runFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) :
    { L6 : List (View.Piece (Elt F) S56x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__hist_kernel i arg1 harg1 arg2 harg2 arg3 harg3 arg4 harg4 arg5 harg5 arg6 harg6 arg7 harg7) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hist

end
-- ==== Proof.Words.RunLater.lean ====
/-
  The body at a later tile. The branch is not taken: the six rows of the tile are loaded, and the table of bin sums
  is read back and stored again with the tile's contribution added. On whole staging memrefs, the six inputs at their
  contents and the table at its running contents, the body runs to its end with the inputs as they were and the
  table holding the one piece its store wrote; the piece is found by running the body.
-/
import proofs.«119832_j4741643894785_1_alg».proof.Proof.Words.RunFirst

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the clearing branch is not taken: the piece the table ends with, and the triple. -/
noncomputable def runLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) :
    { L6 : List (View.Piece (Elt F) S56x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__hist_kernel i arg1 harg1 arg2 harg2 arg3 harg3 arg4 harg4 arg5 harg5 arg6 harg6 arg7 harg7) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hist

end
-- ==== Proof.Words.HistFrame.lean ====
/-
  The frame of the histogram kernel's @main, and what the table of bin sums holds tile by tile. The body's two runs
  give the pieces the table ends with in each case; read back, they are the table after a tile: at the first tile a
  function of the tile's six rows alone, at a later tile of the six rows and of what the tile before left (the
  table's staging buffer is written back after the last tile only, so between tiles it keeps its contents). With
  these as the proof data of the one pipeline — each input's buffer at its block, the table at the accumulation —
  the body meets its obligation at every tile, and @main (sixteen lines, the region, thirty-five lines) runs to its
  end with every window's array at what the library computes from the proof data and every bypassing buffer as the
  later lines leave it; in particular the three arguments end as launched.
-/
import proofs.«119832_j4741643894785_1_alg».proof.Proof.Words.RunLater

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the table -/

/-- At the first tile the two stores (the clearing one and the accumulating one) tile the table. -/
theorem coverFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) (y : S56x7.Idx) :
    ∃ pc ∈ (runFirst c i arg1 harg1 arg2 harg2 arg3 harg3 arg4 harg4 arg5 harg5 arg6 harg6 arg7 harg7 hc0 x0 x1 x2 x3 x4 x5).1, y ∈ pc.1.set :=
  View.cover_of_tiledL (runFirst c i arg1 harg1 arg2 harg2 arg3 harg3 arg4 harg4 arg5 harg5 arg6 harg6 arg7 harg7 hc0 x0 x1 x2 x3 x4 x5).1 S56x7.size (by sl_kernel_rfl) y

/-- The table after the first tile: its pieces read back. -/
def outFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) : Vec F S56x7 .f32 :=
  VO0_6.read (Elt F) (VO0_6.writes (Elt F) VO0_6.junk (runFirst c i arg1 harg1 arg2 harg2 arg3 harg3 arg4 harg4 arg5 harg5 arg6 harg6 arg7 harg7 hc0 x0 x1 x2 x3 x4 x5).1)

/-- At a later tile the one store tiles the table. -/
theorem coverLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) (y : S56x7.Idx) :
    ∃ pc ∈ (runLater c i arg1 harg1 arg2 harg2 arg3 harg3 arg4 harg4 arg5 harg5 arg6 harg6 arg7 harg7 hc0 x0 x1 x2 x3 x4 x5 xo6).1, y ∈ pc.1.set :=
  View.cover_of_tiledL (runLater c i arg1 harg1 arg2 harg2 arg3 harg3 arg4 harg4 arg5 harg5 arg6 harg6 arg7 harg7 hc0 x0 x1 x2 x3 x4 x5 xo6).1 S56x7.size (by sl_kernel_rfl) y

/-- The table after a later tile, given what it held before: its piece read back. -/
def outLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) : Vec F S56x7 .f32 :=
  VO0_6.read (Elt F) (VO0_6.writes (Elt F) VO0_6.junk (runLater c i arg1 harg1 arg2 harg2 arg3 harg3 arg4 harg4 arg5 harg5 arg6 harg6 arg7 harg7 hc0 x0 x1 x2 x3 x4 x5 xo6).1)

/-! ## The accumulation -/

theorem cond_of_zero (t : Fin cfg0.N) (h : t.val = 0) : cond0_0 (grid0.coords t) := (hcond0_0 t).mpr (by rw [h])

theorem not_cond_of_pos (t : Fin cfg0.N) (h : t.val ≠ 0) : ¬cond0_0 (grid0.coords t) := fun hc => by
  have h1 := (hcond0_0 t).mp hc
  have hN : t.val < 625 := lt_of_lt_of_eq t.isLt (show cfg0.N = 625 from N_0)
  omega

/-- The table after the body at tile `n`: the first tile's contents, then each later tile's over the one before. -/
def accAt (c : Dev nD) : (n : ℕ) → n < cfg0.N → Vec F S56x7 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (cond_of_zero ⟨0, hn⟩ rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn => outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (not_cond_of_pos ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

theorem accAt_zero (c : Dev nD) (t : Fin cfg0.N) (h0 : t.val = 0) :
    accAt m c t.val t.isLt = outFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (cond_of_zero t h0) (iblk m c 0 t) (iblk m c 1 t) (iblk m c 2 t) (iblk m c 3 t) (iblk m c 4 t) (iblk m c 5 t) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = outLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (not_cond_of_pos t h0) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at a tile each input's buffer at its block and the table at the
    accumulation; the class's invariant passes through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later tile the table's staging buffer holds what the body left at the tile before: it is written back after
    the last tile only. -/
theorem before0_6_later (c : Dev nD) (t : Fin cfg0.N) (h0 : t.val ≠ 0) (d) :
    (dats m 0 c).before 6 t d = accAt m c (t.val - 1) (Nat.lt_of_le_of_lt (Nat.sub_le _ _) t.isLt) := by
  have hN : t.val < 625 := lt_of_lt_of_eq t.isLt (show cfg0.N = 625 from N_0)
  rw [Dat.before_out_kept _ 6 rfl t h0 (Bool.eq_false_iff.mpr fun h => by have := (flush0_6 _).mp h; dsimp only at this; omega)
    (fun _ => rfl) (fun _ _ => rfl)]
  dsimp only [dats]

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any tile: the inputs' memrefs hold their blocks; at the first tile the table holds anything and the
    clearing run applies, at a later tile it holds what the tile before left and the adding run applies; the invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val = 0
  · rw [accAt_zero m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ (cond_of_zero t h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _)
  · rw [accAt_pos m c t h0]
    simp only [before0_6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (not_cond_of_pos t h0) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverLater c _ _ _ _ _ _ _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hist

end
-- ==== Proof.Ideal.RegionKit.lean ====
/-
  The region of the histogram kernel, as @main meets it. @main is sixteen slicing and reshaping lines (the five
  coordinate and velocity columns and the masses, each laid out as one row of 16,000,000), the pipelined region over
  625 tiles of 25,600 particles, and thirty-five lines that turn the 56 x 7 table of bin sums into the 6 x 50 result.
  This module states what the region is entered with (the arrays after the first sixteen lines), that @main is those
  lines, the region, and the later lines, that the later lines touch only unscoped buffers and write no window's
  array, that the three arguments are written by no line, what block of its array each window holds at a tile, and
  at which tile the body's one branch (clear the table first) is taken: the first tile only.
-/
import proofs.«119832_j4741643894785_1_alg».proof.Proof.Gen.KernelIdeal.Launch
import proofs.«119832_j4741643894785_1_alg».proof.Proof.Gen.KernelIdeal.Skeleton
import proofs.«119832_j4741643894785_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch memory after the sixteen lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- None of the sixteen slicing and reshaping lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 0 is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the sixteen slicing and reshaping lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 1 is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the sixteen slicing and reshaping lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does any of the thirty-five lines after the region, and argument 2 is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place: the window is fetched whole at every point, uncut, never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place: the window is fetched whole at every point, uncut, never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place: the window is fetched whole at every point, uncut, never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place: the window is fetched whole at every point, uncut, never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place: the window is fetched whole at every point, uncut, never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place: the window is fetched whole at every point, uncut, never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run that ends with every bypassing buffer as the later lines leave it ends with the three arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The condition under which the body first clears the table of bin sums, from the tile's coordinate. -/
abbrev cond0_0 (i : grid0.Coords) : Prop := (Scalar.cmpi .ne (Scalar.extui (Scalar.cmpi .eq (BitVec.ofNat 32 (i 0).val) 0#32)) 0#32) = 1#1
/-- It holds at the first tile only. -/
theorem hcond0_0 : ∀ t : Fin cfg0.N, cond0_0 (grid0.coords t) ↔ t.val % 625 = 0 :=
  (by decide +kernel : ∀ t : Fin grid0.N, cond0_0 (grid0.coords t) ↔ t.val % 625 = 0)

/-! ## The staging memrefs at a tile -/

/-- The one staging buffer of the table of bin sums, through which its contents are stated. -/
abbrev VO0_6 : View sig .tc .vmem S56x7 .f32 := (Memref.whole cc0_stg6_0 : Memref sig .tc .vmem S56x7 .f32).view
abbrev ms0_0 (t : Fin cfg0.N) : Memref sig .tc .vmem S1x25600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x25600 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x25600 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x25600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x25600 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x25600 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x7 .f32 := win0_6.stage (cfg0.slots t 6)
abbrev hs0_6 (t : Fin cfg0.N) : (ms0_6 t).IsWhole := hstage0_6 ((cfg0.slots t 6).cast nbuf0_6)

end Cert.KernelIdeal.Hist

end
-- ==== Proof.Ideal.RunFirst.lean ====
/-
  The body at the first tile. The branch is taken: the table of bin sums is cleared, the six rows of the tile are
  loaded, and the table is read back and stored again with the tile's contribution added. On whole staging memrefs,
  the six inputs at their contents and the table at anything, the body runs to its end with the inputs as they
  were and the table holding the pieces its two stores wrote, last first; the pieces are found by running the body.
-/
import proofs.«119832_j4741643894785_1_alg».proof.Proof.Ideal.RegionKit

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the clearing branch is taken: the pieces the table ends with, and the triple. -/
noncomputable def runFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) :
    { L6 : List (View.Piece (Elt F) S56x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__hist_kernel i arg1 harg1 arg2 harg2 arg3 harg3 arg4 harg4 arg5 harg5 arg6 harg6 arg7 harg7) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hist

end
-- ==== Proof.Ideal.RunLater.lean ====
/-
  The body at a later tile. The branch is not taken: the six rows of the tile are loaded, and the table of bin sums
  is read back and stored again with the tile's contribution added. On whole staging memrefs, the six inputs at their
  contents and the table at its running contents, the body runs to its end with the inputs as they were and the
  table holding the one piece its store wrote; the piece is found by running the body.
-/
import proofs.«119832_j4741643894785_1_alg».proof.Proof.Ideal.RunFirst

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the clearing branch is not taken: the piece the table ends with, and the triple. -/
noncomputable def runLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) :
    { L6 : List (View.Piece (Elt F) S56x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__hist_kernel i arg1 harg1 arg2 harg2 arg3 harg3 arg4 harg4 arg5 harg5 arg6 harg6 arg7 harg7) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hist

end
-- ==== Proof.Ideal.HistFrame.lean ====
/-
  The frame of the histogram kernel's @main, and what the table of bin sums holds tile by tile. The body's two runs
  give the pieces the table ends with in each case; read back, they are the table after a tile: at the first tile a
  function of the tile's six rows alone, at a later tile of the six rows and of what the tile before left (the
  table's staging buffer is written back after the last tile only, so between tiles it keeps its contents). With
  these as the proof data of the one pipeline — each input's buffer at its block, the table at the accumulation —
  the body meets its obligation at every tile, and @main (sixteen lines, the region, thirty-five lines) runs to its
  end with every window's array at what the library computes from the proof data and every bypassing buffer as the
  later lines leave it; in particular the three arguments end as launched.
-/
import proofs.«119832_j4741643894785_1_alg».proof.Proof.Ideal.RunLater

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the table -/

/-- At the first tile the two stores (the clearing one and the accumulating one) tile the table. -/
theorem coverFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) (y : S56x7.Idx) :
    ∃ pc ∈ (runFirst c i arg1 harg1 arg2 harg2 arg3 harg3 arg4 harg4 arg5 harg5 arg6 harg6 arg7 harg7 hc0 x0 x1 x2 x3 x4 x5).1, y ∈ pc.1.set :=
  View.cover_of_tiledL (runFirst c i arg1 harg1 arg2 harg2 arg3 harg3 arg4 harg4 arg5 harg5 arg6 harg6 arg7 harg7 hc0 x0 x1 x2 x3 x4 x5).1 S56x7.size (by sl_kernel_rfl) y

/-- The table after the first tile: its pieces read back. -/
def outFirst (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) : Vec F S56x7 .f32 :=
  VO0_6.read (Elt F) (VO0_6.writes (Elt F) VO0_6.junk (runFirst c i arg1 harg1 arg2 harg2 arg3 harg3 arg4 harg4 arg5 harg5 arg6 harg6 arg7 harg7 hc0 x0 x1 x2 x3 x4 x5).1)

/-- At a later tile the one store tiles the table. -/
theorem coverLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) (y : S56x7.Idx) :
    ∃ pc ∈ (runLater c i arg1 harg1 arg2 harg2 arg3 harg3 arg4 harg4 arg5 harg5 arg6 harg6 arg7 harg7 hc0 x0 x1 x2 x3 x4 x5 xo6).1, y ∈ pc.1.set :=
  View.cover_of_tiledL (runLater c i arg1 harg1 arg2 harg2 arg3 harg3 arg4 harg4 arg5 harg5 arg6 harg6 arg7 harg7 hc0 x0 x1 x2 x3 x4 x5 xo6).1 S56x7.size (by sl_kernel_rfl) y

/-- The table after a later tile, given what it held before: its piece read back. -/
def outLater (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) : Vec F S56x7 .f32 :=
  VO0_6.read (Elt F) (VO0_6.writes (Elt F) VO0_6.junk (runLater c i arg1 harg1 arg2 harg2 arg3 harg3 arg4 harg4 arg5 harg5 arg6 harg6 arg7 harg7 hc0 x0 x1 x2 x3 x4 x5 xo6).1)

/-! ## The accumulation -/

theorem cond_of_zero (t : Fin cfg0.N) (h : t.val = 0) : cond0_0 (grid0.coords t) := (hcond0_0 t).mpr (by rw [h])

theorem not_cond_of_pos (t : Fin cfg0.N) (h : t.val ≠ 0) : ¬cond0_0 (grid0.coords t) := fun hc => by
  have h1 := (hcond0_0 t).mp hc
  have hN : t.val < 625 := lt_of_lt_of_eq t.isLt (show cfg0.N = 625 from N_0)
  omega

/-- The table after the body at tile `n`: the first tile's contents, then each later tile's over the one before. -/
def accAt (c : Dev nD) : (n : ℕ) → n < cfg0.N → Vec F S56x7 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (cond_of_zero ⟨0, hn⟩ rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn => outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (not_cond_of_pos ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

theorem accAt_zero (c : Dev nD) (t : Fin cfg0.N) (h0 : t.val = 0) :
    accAt m c t.val t.isLt = outFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (cond_of_zero t h0) (iblk m c 0 t) (iblk m c 1 t) (iblk m c 2 t) (iblk m c 3 t) (iblk m c 4 t) (iblk m c 5 t) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = outLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (not_cond_of_pos t h0) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at a tile each input's buffer at its block and the table at the
    accumulation; the class's invariant passes through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later tile the table's staging buffer holds what the body left at the tile before: it is written back after
    the last tile only. -/
theorem before0_6_later (c : Dev nD) (t : Fin cfg0.N) (h0 : t.val ≠ 0) (d) :
    (dats m 0 c).before 6 t d = accAt m c (t.val - 1) (Nat.lt_of_le_of_lt (Nat.sub_le _ _) t.isLt) := by
  have hN : t.val < 625 := lt_of_lt_of_eq t.isLt (show cfg0.N = 625 from N_0)
  rw [Dat.before_out_kept _ 6 rfl t h0 (Bool.eq_false_iff.mpr fun h => by have := (flush0_6 _).mp h; dsimp only at this; omega)
    (fun _ => rfl) (fun _ _ => rfl)]
  dsimp only [dats]

/-! ## The body obligation -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any tile: the inputs' memrefs hold their blocks; at the first tile the table holds anything and the
    clearing run applies, at a later tile it holds what the tile before left and the adding run applies; the invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val = 0
  · rw [accAt_zero m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ (cond_of_zero t h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _)
  · rw [accAt_pos m c t h0]
    simp only [before0_6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (not_cond_of_pos t h0) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverLater c _ _ _ _ _ _ _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hist

end
-- ==== Proof.Ideal.TableStep.lean ====
/-
  What the table of bin sums holds after a tile, as the body's arithmetic. The body's arithmetic is one pure term:
  the tile's contribution (the one-hot matrix times the seven moments) added to what the table held. After the first
  tile the table held the cleared value; after a later tile it held what the tile before left. The loads and stores
  all go through whole blocks, so reading the pieces back collapses to that term.
-/
import proofs.«119832_j4741643894785_1_alg».proof.Proof.Ideal.HistFrame
import Idealize.ShloMosaic.Lib.Pipeline.Value

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_offsets : (![0, 0] : Fin 2 → Nat) = fun _ => 0 := by funext a; fin_cases a <;> rfl

/-- The values the body's arithmetic takes from the six loaded rows. -/
abbrev stepOf (x0 x1 x2 x3 x4 x5 : Vec F S1x25600 .f32) (prev : Vec F S56x7 .f32) : FVec F S56x7 .f32 :=
  k0_pay1 (k0_pay3 x0) (k0_pay4 x1) (k0_pay5 x2) (k0_pay6 x3) (k0_pay7 x4) (k0_pay8 x0 x1) (k0_pay11 x0 x1) (k0_pay12 x0 x1 x5) (k0_pay13 x0 x1 x2 x3) prev

/-- After a later tile: the step applied to what the table held. -/
theorem outLater_eq (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : ¬cond0_0 i)
    (x0 x1 x2 x3 x4 x5 : Vec F S1x25600 .f32) (xo6 : Vec F S56x7 .f32) :
    outLater (F := F) c i arg1 harg1 arg2 harg2 arg3 harg3 arg4 harg4 arg5 harg5 arg6 harg6 arg7 harg7 hc0 x0 x1 x2 x3 x4 x5 xo6 = stepOf x0 x1 x2 x3 x4 x5 xo6 := by
  unfold outLater
  rw [View.read_writes_eq_canon _ _ _ (coverLater c i arg1 harg1 arg2 harg2 arg3 harg3 arg4 harg4 arg5 harg5 arg6 harg6 arg7 harg7 hc0 x0 x1 x2 x3 x4 x5 xo6)]
  unfold runLater
  dsimp only
  sl_unfold_words
  rw [View.canon_unit_zero zero_offsets]
  simp only [View.readAt_eq_ld, harg1.read_unread, harg2.read_unread, harg3.read_unread, harg4.read_unread, harg5.read_unread, harg6.read_unread, harg7.read_unread, View.ld_unit_zero (S := S56x7) zero_offsets, View.ld_unit_zero (S := S1x25600) zero_offsets]

/-- After the first tile: the step applied to the cleared table. -/
theorem outFirst_eq (c : Dev nD) (i : grid0.Coords) (arg1 : Memref sig .tc .vmem S1x25600 .f32) (harg1 : arg1.IsWhole) (arg2 : Memref sig .tc .vmem S1x25600 .f32) (harg2 : arg2.IsWhole) (arg3 : Memref sig .tc .vmem S1x25600 .f32) (harg3 : arg3.IsWhole) (arg4 : Memref sig .tc .vmem S1x25600 .f32) (harg4 : arg4.IsWhole) (arg5 : Memref sig .tc .vmem S1x25600 .f32) (harg5 : arg5.IsWhole) (arg6 : Memref sig .tc .vmem S1x25600 .f32) (harg6 : arg6.IsWhole) (arg7 : Memref sig .tc .vmem S56x7 .f32) (harg7 : arg7.IsWhole) (hc0 : cond0_0 i)
    (x0 x1 x2 x3 x4 x5 : Vec F S1x25600 .f32) :
    outFirst (F := F) c i arg1 harg1 arg2 harg2 arg3 harg3 arg4 harg4 arg5 harg5 arg6 harg6 arg7 harg7 hc0 x0 x1 x2 x3 x4 x5 = stepOf x0 x1 x2 x3 x4 x5 (k0_pay2 (F := F)) := by
  unfold outFirst
  rw [View.read_writes_eq_canon _ _ _ (coverFirst c i arg1 harg1 arg2 harg2 arg3 harg3 arg4 harg4 arg5 harg5 arg6 harg6 arg7 harg7 hc0 x0 x1 x2 x3 x4 x5)]
  unfold runFirst
  dsimp only
  sl_unfold_words
  rw [View.canon_cons_unit_zero zero_offsets]
  simp only [View.readAt_eq_ld, harg1.read_unread, harg2.read_unread, harg3.read_unread, harg4.read_unread, harg5.read_unread, harg6.read_unread, harg7.read_unread, View.ld_unit_zero (S := S56x7) zero_offsets, View.ld_unit_zero (S := S1x25600) zero_offsets]
  rw [View.readCov_unit_zero (S := S56x7) arg7.view zero_offsets]

end Cert.KernelIdeal.Hist

end
-- ==== Proof.Spec.lean ====
/-
  What both programs compute, particle by particle and bin by bin.

  A particle has a position (x, y, ·), a velocity (vx, vy, vz) and a mass. Its cylindrical radius is r = √(x² + y²),
  its bin is ⌊(r − 0) / 0.2⌋ converted to a signed 32-bit integer, and it counts when that integer lies in [0, 50):
  a particle that does not count is given bin 0 and weight 0, one that counts keeps its bin and weighs its mass. Its
  radial and tangential velocities are (x·vx + y·vy) / r and (y·vx − x·vy) / r. Seven numbers per particle are summed
  into its bin: the weight, and the weight times v_r, v_r², v_φ, v_φ², vz, vz².

  The kernel forms the squares as (w·v)·v, the reference as w·(v·v), and the reference writes the weight itself as
  w·1; on the extended reals multiplication is associative and 1 is its unit, with no finiteness needed, so the two
  lists of seven are equal for every particle, infinite entries included.

  The table of bin sums is, for bin b and moment f, the sum of moment f over the particles whose bin is b.
  The float literals 0.0 and 0.2 are kept as the f32 words the programs print; the same words stand on both sides.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Disk

open Idealize.ShloMosaic Idealize.ShloMosaic.ValueIdx Finset

/-- The f32 word of 0.0 read on the extended reals. -/
abbrev zeroW : EReal := Ideal.ofBits .f32 0x00000000#32
/-- The f32 word of the bin width 0.2. -/
abbrev widthW : EReal := Ideal.ofBits .f32 0x3E4CCCCD#32
/-- The f32 word of 1.0. -/
abbrev oneW : EReal := Ideal.ofBits .f32 0x3F800000#32

theorem zeroW_eq : zeroW = 0 := Ideal.ofBits_zero_f32

/-! ## One particle -/

/-- The cylindrical radius. -/
def radius (x y : EReal) : EReal := Ideal.sqrt (x * x + y * y)

/-- The bin as a signed word: the floor of (r − 0) / 0.2, converted. -/
def binWord (x y : EReal) : BitVec 32 :=
  Ideal.fptosi 32 (Ideal.liftRound Int.floor (Ideal.div (radius x y - zeroW) widthW))

/-- Whether the particle counts: its bin word is at least 0 and below 50. -/
def counts (x y : EReal) : BitVec 1 :=
  IntOp.andi (IntOp.cmpi .sge (binWord x y) 0#32) (IntOp.cmpi .slt (binWord x y) 50#32)

/-- The bin a particle is added into: its own when it counts, bin 0 otherwise. -/
def bin (x y : EReal) : BitVec 32 := Scalar.select (counts x y) (binWord x y) 0#32

/-- The weight: the mass when it counts, 0 otherwise. -/
def weight (x y ms : EReal) : EReal := Scalar.select (counts x y) ms zeroW

/-- The radial velocity. -/
def vRad (x y vx vy : EReal) : EReal := Ideal.div (x * vx + y * vy) (radius x y)

/-- The tangential velocity. -/
def vTan (x y vx vy : EReal) : EReal := Ideal.div (y * vx - x * vy) (radius x y)

/-- The seven numbers a particle adds to its bin, squares formed as (w·v)·v. -/
def moment (x y vx vy vz ms : EReal) (f : Fin 7) : EReal :=
  match f with
  | ⟨0, _⟩ => weight x y ms
  | ⟨1, _⟩ => weight x y ms * vRad x y vx vy
  | ⟨2, _⟩ => weight x y ms * vRad x y vx vy * vRad x y vx vy
  | ⟨3, _⟩ => weight x y ms * vTan x y vx vy
  | ⟨4, _⟩ => weight x y ms * vTan x y vx vy * vTan x y vx vy
  | ⟨5, _⟩ => weight x y ms * vz
  | ⟨6, _⟩ => weight x y ms * vz * vz

/-- The same seven with the weight multiplied last onto 1, v, v·v. -/
def momentAlt (x y vx vy vz ms : EReal) (f : Fin 7) : EReal :=
  match f with
  | ⟨0, _⟩ => weight x y ms * oneW
  | ⟨1, _⟩ => weight x y ms * vRad x y vx vy
  | ⟨2, _⟩ => weight x y ms * (vRad x y vx vy * vRad x y vx vy)
  | ⟨3, _⟩ => weight x y ms * vTan x y vx vy
  | ⟨4, _⟩ => weight x y ms * (vTan x y vx vy * vTan x y vx vy)
  | ⟨5, _⟩ => weight x y ms * vz
  | ⟨6, _⟩ => weight x y ms * (vz * vz)

theorem oneW_eq : oneW = 1 := IdealRules.sign_bit.ideal_onePat .f32

/-- Associativity of the product and its unit: the two groupings agree on every extended real. -/
theorem momentAlt_eq (x y vx vy vz ms : EReal) (f : Fin 7) :
    momentAlt x y vx vy vz ms f = moment x y vx vy vz ms f := by
  match f with
  | ⟨0, _⟩ => show weight x y ms * oneW = weight x y ms; rw [oneW_eq, mul_one]
  | ⟨1, _⟩ => rfl
  | ⟨2, _⟩ => show _ * (_ * _) = _ * _ * _; rw [mul_assoc]
  | ⟨3, _⟩ => rfl
  | ⟨4, _⟩ => show _ * (_ * _) = _ * _ * _; rw [mul_assoc]
  | ⟨5, _⟩ => rfl
  | ⟨6, _⟩ => show _ * (_ * _) = _ * _ * _; rw [mul_assoc]

/-! ## All the particles -/

/-- The shapes of the three arguments. -/
abbrev SPos : Shape := ⟨2, ![16000000, 3]⟩
abbrev SMass : Shape := ⟨1, ![16000000]⟩

/-- Particle `n`'s bin, from the positions. -/
def binOf (P : SPos.Idx → EReal) (n : Fin 16000000) : BitVec 32 :=
  bin (P (ix2 n (0 : Fin 3))) (P (ix2 n (1 : Fin 3)))

/-- Particle `n`'s moment `f`, from positions, velocities and masses. -/
def momentOf (P V : SPos.Idx → EReal) (M : SMass.Idx → EReal) (n : Fin 16000000) (f : Fin 7) : EReal :=
  moment (P (ix2 n (0 : Fin 3))) (P (ix2 n (1 : Fin 3))) (V (ix2 n (0 : Fin 3))) (V (ix2 n (1 : Fin 3)))
    (V (ix2 n (2 : Fin 3))) (M (ix1 n)) f

/-- THE TABLE: for bin `b` and moment `f`, moment `f` summed over the particles whose bin is `b`. -/
def table (P V : SPos.Idx → EReal) (M : SMass.Idx → EReal) (b : Fin 50) (f : Fin 7) : EReal :=
  ∑ n ∈ univ.filter (fun n : Fin 16000000 => (binOf P n).toInt = (b.val : Int)), momentOf P V M n f

end Cert.Disk

end
-- ==== Proof.Ideal.StepAt.lean ====
/-
  One tile's step of the table of bin sums, read at an entry, on the extended reals. The body's arithmetic for a tile is
  a product of two matrices added to what the table held: the one-hot matrix (56 bins by 25,600 lanes: 1 where the
  lane's particle falls in the bin, found by comparing a row of bin numbers with each lane's bin, widening the bit and
  converting it) times the seven moments (7 by 25,600: the weight row and its products with the velocity rows, each
  reshaped to a vector and back and joined). Each row is pointwise in the lane, so entry (b, f) of the step is what the
  table held at (b, f) plus, over the lanes, the one-hot entry times the lane's moment f. Every loaded row first goes
  through a reshape to its own shape, which is the identity.
-/
import proofs.«119832_j4741643894785_1_alg».proof.Proof.Ideal.TableStep
import proofs.«119832_j4741643894785_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hist

open Cert.KernelIdeal Cert.KernelIdeal.Gen
open Idealize.ShloMosaic Idealize.ShloMosaic.TcCoe Idealize.ShloMosaic.ValueIdx

local notation "dd" => dot_S56x25600_S7x25600_S56x7_1_1_0_0_n_n

/-- The one-hot matrix's entry for bin `b` and a particle at (x, y): 1 when the particle's bin is `b`, else 0, as the
    body forms it (compare the words, widen the bit, convert). -/
def hot (x y : EReal) (b : Fin 56) : EReal :=
  FloatOps.sitofp (F := Ideal) .f32 ((IntOp.cmpi .eq (BitVec.ofNat 32 b.val) (Cert.Disk.bin x y)).setWidth 32)

theorem pay3_eq (x : Vec Ideal S1x25600 .f32) : k0_pay3 (F := Ideal) x = x := shapeCast_self _ _
theorem pay4_eq (x : Vec Ideal S1x25600 .f32) : k0_pay4 (F := Ideal) x = x := shapeCast_self _ _
theorem pay5_eq (x : Vec Ideal S1x25600 .f32) : k0_pay5 (F := Ideal) x = x := shapeCast_self _ _
theorem pay6_eq (x : Vec Ideal S1x25600 .f32) : k0_pay6 (F := Ideal) x = x := shapeCast_self _ _
theorem pay7_eq (x : Vec Ideal S1x25600 .f32) : k0_pay7 (F := Ideal) x = x := shapeCast_self _ _

/-- The radius row. -/
theorem pay8_apply (x y : Vec Ideal S1x25600 .f32) (q : S1x25600.Idx) :
    k0_pay8 (F := Ideal) x y q = Cert.Disk.radius (x q) (y q) := by
  unfold k0_pay8; rw [pay3_eq, pay4_eq]; rfl

/-- The bin row. -/
theorem pay11_apply (x y : Vec Ideal S1x25600 .f32) (q : S1x25600.Idx) :
    k0_pay11 (F := Ideal) x y q = Cert.Disk.bin (x q) (y q) := by
  unfold k0_pay11 k0_pay10 k0_pay9
  rw [show k0_pay8 (F := Ideal) x y = fun q => Cert.Disk.radius (x q) (y q) from funext (pay8_apply x y)]
  rfl

/-- The weight row. -/
theorem pay12_apply (x y ms : Vec Ideal S1x25600 .f32) (q : S1x25600.Idx) :
    k0_pay12 (F := Ideal) x y ms q = Cert.Disk.weight (x q) (y q) (ms q) := by
  unfold k0_pay12 k0_pay10 k0_pay9
  rw [shapeCast_self, show k0_pay8 (F := Ideal) x y = fun q => Cert.Disk.radius (x q) (y q) from funext (pay8_apply x y)]
  rfl

/-- The radial-velocity row. -/
theorem pay13_apply (x y vx vy : Vec Ideal S1x25600 .f32) (q : S1x25600.Idx) :
    k0_pay13 (F := Ideal) x y vx vy q = Cert.Disk.vRad (x q) (y q) (vx q) (vy q) := by
  unfold k0_pay13
  rw [pay3_eq, pay4_eq, pay5_eq, pay6_eq]
  show Ideal.div _ (k0_pay8 x y q) = _
  rw [pay8_apply]
  rfl

/-- The one-hot matrix at (b, k): whether the particle in lane `k` falls in bin `b`. -/
theorem onehot_apply (x y : Vec Ideal S1x25600 .f32) (q : S56x25600.Idx) (b : Fin 56) (k : Fin 25600)
    (hq0 : (q 0).val = b.val) (hq1 : (q 1).val = k.val) :
    (sitofp .f32 (extui 32 (cmpi .eq (iota .tc S56x25600 32 [0] iota_S56x25600_d0_w32)
        (broadcastTo S56x25600 (k0_pay11 (F := Ideal) x y) broadcasts_S1x25600_S56x25600)) natLt_1_32) : FVec Ideal S56x25600 .f32) q
      = hot (x (ix2 0 k)) (y (ix2 0 k)) b := by
  show FloatOps.sitofp (F := Ideal) .f32 ((IntOp.cmpi .eq (iota .tc S56x25600 32 [0] iota_S56x25600_d0_w32 q)
    (broadcastTo S56x25600 (k0_pay11 (F := Ideal) x y) broadcasts_S1x25600_S56x25600 q)).setWidth 32) = _
  rw [iota_single_apply, broadcastTo_apply (k0_pay11 (F := Ideal) x y) broadcasts_S1x25600_S56x25600 q (ix2 0 k) (fun a => by
    match a with
    | ⟨0, _⟩ => rfl
    | ⟨1, _⟩ => exact hq1.symm), pay11_apply, hq0]
  rfl

/-- Seven rows of one tile joined along the first axis: entry (f, k) is row `f` at lane `k`. -/
theorem joined_apply (r0 r1 r2 r3 r4 r5 r6 : S1x25600.Idx → EReal) (q : S7x25600.Idx) (f : Fin 7) (k : Fin 25600)
    (hq0 : (q 0).val = f.val) (hq1 : (q 1).val = k.val) :
    concatenate S7x25600 0 [⟨S1x25600, r0⟩, ⟨S1x25600, r1⟩, ⟨S1x25600, r2⟩, ⟨S1x25600, r3⟩, ⟨S1x25600, r4⟩, ⟨S1x25600, r5⟩, ⟨S1x25600, r6⟩]
        concatenates_S1x25600_S1x25600_S1x25600_S1x25600_S1x25600_S1x25600_S1x25600_S7x25600_d0 q
      = (match f with
          | ⟨0, _⟩ => r0 | ⟨1, _⟩ => r1 | ⟨2, _⟩ => r2 | ⟨3, _⟩ => r3 | ⟨4, _⟩ => r4 | ⟨5, _⟩ => r5 | ⟨6, _⟩ => r6) (ix2 0 k) := by
  have side : ∀ b : Fin S1x25600.rank, Fin.cast (rfl : S1x25600.rank = S7x25600.rank) b ≠ (0 : Fin S7x25600.rank) →
      ((ix2 (0 : Fin 1) k : S1x25600.Idx) b).val = (q (Fin.cast rfl b)).val := fun b hb => by
    match b with
    | ⟨0, _⟩ => exact absurd rfl hb
    | ⟨1, _⟩ => exact hq1.symm
  match f, hq0 with
  | ⟨0, _⟩, hq0 => exact concatenate_apply_piece 0 _ _ q 0 (by show 0 < 7; omega) S1x25600 r0 rfl rfl 0 rfl (ix2 0 k) side (by show 0 + 0 = (q 0).val; exact hq0.symm)
  | ⟨1, _⟩, hq0 => exact concatenate_apply_piece 0 _ _ q 1 (by show 1 < 7; omega) S1x25600 r1 rfl rfl 1 rfl (ix2 0 k) side (by show 1 + 0 = (q 0).val; exact hq0.symm)
  | ⟨2, _⟩, hq0 => exact concatenate_apply_piece 0 _ _ q 2 (by show 2 < 7; omega) S1x25600 r2 rfl rfl 2 rfl (ix2 0 k) side (by show 2 + 0 = (q 0).val; exact hq0.symm)
  | ⟨3, _⟩, hq0 => exact concatenate_apply_piece 0 _ _ q 3 (by show 3 < 7; omega) S1x25600 r3 rfl rfl 3 rfl (ix2 0 k) side (by show 3 + 0 = (q 0).val; exact hq0.symm)
  | ⟨4, _⟩, hq0 => exact concatenate_apply_piece 0 _ _ q 4 (by show 4 < 7; omega) S1x25600 r4 rfl rfl 4 rfl (ix2 0 k) side (by show 4 + 0 = (q 0).val; exact hq0.symm)
  | ⟨5, _⟩, hq0 => exact concatenate_apply_piece 0 _ _ q 5 (by show 5 < 7; omega) S1x25600 r5 rfl rfl 5 rfl (ix2 0 k) side (by show 5 + 0 = (q 0).val; exact hq0.symm)
  | ⟨6, _⟩, hq0 => exact concatenate_apply_piece 0 _ _ q 6 (by show 6 < 7; omega) S1x25600 r6 rfl rfl 6 rfl (ix2 0 k) side (by show 6 + 0 = (q 0).val; exact hq0.symm)

/-- THE STEP AT AN ENTRY. What one tile adds to entry (b, f) of the table: over the tile's 25,600 lanes, the one-hot
    entry of bin `b` times moment `f` of the lane's particle; added to what the table held. -/
theorem step_apply (x0 x1 x2 x3 x4 x5 : Vec Ideal S1x25600 .f32) (prev : Vec Ideal S56x7 .f32) (b : Fin 56) (f : Fin 7) :
    stepOf (F := Ideal) x0 x1 x2 x3 x4 x5 prev (ix2 b f)
      = prev (ix2 b f) + ∑ k : Fin 25600, hot (x0 (ix2 0 k)) (x1 (ix2 0 k)) b
          * Cert.Disk.moment (x0 (ix2 0 k)) (x1 (ix2 0 k)) (x2 (ix2 0 k)) (x3 (ix2 0 k)) (x4 (ix2 0 k)) (x5 (ix2 0 k)) f := by
  unfold stepOf k0_pay1
  dsimp only
  rw [pay3_eq, pay4_eq, pay5_eq, pay6_eq, pay7_eq]
  rw [addf_apply, shapeCast_self]
  simp only [matmul]
  rw [Ideal.matmul_constant_zero_apply]
  refine congrArg (prev (ix2 b f) + ·) ?_
  rw [← Equiv.sum_comp (contrEquiv1 dd 25600 rfl rfl).symm]
  refine Finset.sum_congr rfl fun k _ => ?_
  have hk : (((contrEquiv1 dd 25600 rfl rfl).symm k) ⟨0, by decide⟩ : ℕ) = k.val := contrEquiv1_symm_val dd 25600 rfl rfl k
  rw [onehot_apply x0 x1 _ b k rfl hk, joined_apply _ _ _ _ _ _ _ _ f k rfl hk]
  refine congrArg (hot _ _ b * ·) ?_
  match f with
  | ⟨0, _⟩ => dsimp only; rw [shapeCast_shapeCast, pay12_apply]; rfl
  | ⟨1, _⟩ => dsimp only; rw [shapeCast_shapeCast]; show k0_pay12 x0 x1 x5 _ * k0_pay13 x0 x1 x2 x3 _ = _; rw [pay12_apply, pay13_apply]; rfl
  | ⟨2, _⟩ => dsimp only; rw [shapeCast_shapeCast]; show k0_pay12 x0 x1 x5 _ * k0_pay13 x0 x1 x2 x3 _ * k0_pay13 x0 x1 x2 x3 _ = _; rw [pay12_apply, pay13_apply]; rfl
  | ⟨3, _⟩ => dsimp only; rw [shapeCast_shapeCast]; show k0_pay12 x0 x1 x5 _ * Ideal.div (x1 _ * x2 _ - x0 _ * x3 _) (k0_pay8 x0 x1 _) = _; rw [pay12_apply, pay8_apply]; rfl
  | ⟨4, _⟩ => dsimp only; rw [shapeCast_shapeCast]; show k0_pay12 x0 x1 x5 _ * Ideal.div (x1 _ * x2 _ - x0 _ * x3 _) (k0_pay8 x0 x1 _) * Ideal.div (x1 _ * x2 _ - x0 _ * x3 _) (k0_pay8 x0 x1 _) = _; rw [pay12_apply, pay8_apply]; rfl
  | ⟨5, _⟩ => dsimp only; rw [shapeCast_shapeCast]; show k0_pay12 x0 x1 x5 _ * x4 _ = _; rw [pay12_apply]; rfl
  | ⟨6, _⟩ => dsimp only; rw [shapeCast_shapeCast]; show k0_pay12 x0 x1 x5 _ * x4 _ * x4 _ = _; rw [pay12_apply]; rfl

/-- A bin number below 56 read back from its 32-bit word. -/
theorem ofNat_toInt (b : Fin 56) : (BitVec.ofNat 32 b.val).toInt = (b.val : Int) := by
  revert b; decide

/-- The one-hot entry is 1 when the particle's bin, read signed, is `b`, and 0 otherwise. -/
theorem hot_eq (x y : EReal) (b : Fin 56) :
    hot x y b = if (Cert.Disk.bin x y).toInt = (b.val : Int) then 1 else 0 := by
  unfold hot
  show (((BitVec.setWidth 32 (IntOp.cmpi .eq (BitVec.ofNat 32 b.val) (Cert.Disk.bin x y))).toInt : ℝ) : EReal) = _
  by_cases h : (Cert.Disk.bin x y).toInt = (b.val : Int)
  · have e : BitVec.ofNat 32 b.val = Cert.Disk.bin x y := BitVec.eq_of_toInt_eq ((ofNat_toInt b).trans h.symm)
    have hc : IntOp.cmpi .eq (BitVec.ofNat 32 b.val) (Cert.Disk.bin x y) = 1#1 := by
      unfold IntOp.cmpi; simp [e]
    rw [if_pos h, hc, show (BitVec.setWidth 32 1#1).toInt = 1 by decide]
    simp
  · have e : BitVec.ofNat 32 b.val ≠ Cert.Disk.bin x y := fun e => h (by rw [← e]; exact ofNat_toInt b)
    have hc : IntOp.cmpi .eq (BitVec.ofNat 32 b.val) (Cert.Disk.bin x y) = 0#1 := by
      unfold IntOp.cmpi
      show BitVec.ofBool (BitVec.ofNat 32 b.val == Cert.Disk.bin x y) = 0#1
      rw [beq_eq_false_iff_ne.mpr e]; rfl
    rw [if_neg h, hc, show (BitVec.setWidth 32 0#1).toInt = 0 by decide]
    simp

end Cert.KernelIdeal.Hist

end
-- ==== Proof.Ideal.Blocks.lean ====
/-
  Where the tiles sit in the arguments. Window w of the pipeline stages one row of 16,000,000 entries, 25,600 at a
  time: the block of tile t is the entries t·25600 … t·25600 + 25599, so lane k of tile t is particle t·25600 + k. The
  rows themselves are the sixteen lines before the region: a column of the positions or of the velocities sliced out
  (16000000 x 1), flattened, and laid out as one row; the masses laid out as one row. So each window's block at a lane
  is one entry of an argument.
-/
import proofs.«119832_j4741643894785_1_alg».proof.Proof.Ideal.HistFrame
import Idealize.ShloMosaic.Lib.Pipeline.Value
import Idealize.ShloMosaic.Lib.ValueIdx
import Idealize.ShloMosaic.Lib.StableHlo.Run

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt F) ℓ)

/-- Every input window's block index at tile `t` is (0, t). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The particle in lane `k` of tile `t`. -/
abbrev lane (t : Fin cfg0.N) (k : Fin 25600) : Fin 16000000 :=
  ⟨t.val * 25600 + k.val, by
    have hN : t.val < 625 := lt_of_lt_of_eq t.isLt (show cfg0.N = 625 from N_0)
    have hk := k.isLt
    omega⟩

/-- Window 0's block at tile `t`, lane `k`, of ANY contents of its array: the row entry of particle t·25600 + k. -/
theorem blk0_at (A : S1x16000000.Idx → Elt F .f32) (t : Fin cfg0.N) (k : Fin 25600) :
    ((cfg0.win 0).blk t).view.read (Elt F) A (ix2 (0 : Fin 1) k) = A (ix2 (0 : Fin 1) (lane t k)) := by
  obtain ⟨e0a, e0b, -, -, -, -, -, -, -, -, -, -⟩ := idx_facts t
  show A (((cfg0.win 0).blk t).view.emb (ix2 (0 : Fin 1) k)) = _
  refine congrArg A ?_
  funext a; apply Fin.ext
  match a with
  | ⟨0, _⟩ => show win0_0.index t (0 : Fin 2) * 1 + 1 * 0 = 0; omega
  | ⟨1, _⟩ => show win0_0.index t (1 : Fin 2) * 25600 + 1 * k.val = t.val * 25600 + k.val; omega

theorem iblk0_at (c : Dev nD) (t : Fin cfg0.N) (k : Fin 25600) :
    iblk m c 0 t (ix2 (0 : Fin 1) k) = V m c main_v2 (ix2 (0 : Fin 1) (lane t k)) := by
  unfold iblk
  exact blk0_at (V m c main_v2) t k

/-- Window 1's block at tile `t`, lane `k`, of ANY contents of its array: the row entry of particle t·25600 + k. -/
theorem blk1_at (A : S1x16000000.Idx → Elt F .f32) (t : Fin cfg0.N) (k : Fin 25600) :
    ((cfg0.win 1).blk t).view.read (Elt F) A (ix2 (0 : Fin 1) k) = A (ix2 (0 : Fin 1) (lane t k)) := by
  obtain ⟨-, -, e1a, e1b, -, -, -, -, -, -, -, -⟩ := idx_facts t
  show A (((cfg0.win 1).blk t).view.emb (ix2 (0 : Fin 1) k)) = _
  refine congrArg A ?_
  funext a; apply Fin.ext
  match a with
  | ⟨0, _⟩ => show win0_1.index t (0 : Fin 2) * 1 + 1 * 0 = 0; omega
  | ⟨1, _⟩ => show win0_1.index t (1 : Fin 2) * 25600 + 1 * k.val = t.val * 25600 + k.val; omega

theorem iblk1_at (c : Dev nD) (t : Fin cfg0.N) (k : Fin 25600) :
    iblk m c 1 t (ix2 (0 : Fin 1) k) = V m c main_v5 (ix2 (0 : Fin 1) (lane t k)) := by
  unfold iblk
  exact blk1_at (V m c main_v5) t k

/-- Window 2's block at tile `t`, lane `k`, of ANY contents of its array: the row entry of particle t·25600 + k. -/
theorem blk2_at (A : S1x16000000.Idx → Elt F .f32) (t : Fin cfg0.N) (k : Fin 25600) :
    ((cfg0.win 2).blk t).view.read (Elt F) A (ix2 (0 : Fin 1) k) = A (ix2 (0 : Fin 1) (lane t k)) := by
  obtain ⟨-, -, -, -, e2a, e2b, -, -, -, -, -, -⟩ := idx_facts t
  show A (((cfg0.win 2).blk t).view.emb (ix2 (0 : Fin 1) k)) = _
  refine congrArg A ?_
  funext a; apply Fin.ext
  match a with
  | ⟨0, _⟩ => show win0_2.index t (0 : Fin 2) * 1 + 1 * 0 = 0; omega
  | ⟨1, _⟩ => show win0_2.index t (1 : Fin 2) * 25600 + 1 * k.val = t.val * 25600 + k.val; omega

theorem iblk2_at (c : Dev nD) (t : Fin cfg0.N) (k : Fin 25600) :
    iblk m c 2 t (ix2 (0 : Fin 1) k) = V m c main_v8 (ix2 (0 : Fin 1) (lane t k)) := by
  unfold iblk
  exact blk2_at (V m c main_v8) t k

/-- Window 3's block at tile `t`, lane `k`, of ANY contents of its array: the row entry of particle t·25600 + k. -/
theorem blk3_at (A : S1x16000000.Idx → Elt F .f32) (t : Fin cfg0.N) (k : Fin 25600) :
    ((cfg0.win 3).blk t).view.read (Elt F) A (ix2 (0 : Fin 1) k) = A (ix2 (0 : Fin 1) (lane t k)) := by
  obtain ⟨-, -, -, -, -, -, e3a, e3b, -, -, -, -⟩ := idx_facts t
  show A (((cfg0.win 3).blk t).view.emb (ix2 (0 : Fin 1) k)) = _
  refine congrArg A ?_
  funext a; apply Fin.ext
  match a with
  | ⟨0, _⟩ => show win0_3.index t (0 : Fin 2) * 1 + 1 * 0 = 0; omega
  | ⟨1, _⟩ => show win0_3.index t (1 : Fin 2) * 25600 + 1 * k.val = t.val * 25600 + k.val; omega

theorem iblk3_at (c : Dev nD) (t : Fin cfg0.N) (k : Fin 25600) :
    iblk m c 3 t (ix2 (0 : Fin 1) k) = V m c main_v11 (ix2 (0 : Fin 1) (lane t k)) := by
  unfold iblk
  exact blk3_at (V m c main_v11) t k

/-- Window 4's block at tile `t`, lane `k`, of ANY contents of its array: the row entry of particle t·25600 + k. -/
theorem blk4_at (A : S1x16000000.Idx → Elt F .f32) (t : Fin cfg0.N) (k : Fin 25600) :
    ((cfg0.win 4).blk t).view.read (Elt F) A (ix2 (0 : Fin 1) k) = A (ix2 (0 : Fin 1) (lane t k)) := by
  obtain ⟨-, -, -, -, -, -, -, -, e4a, e4b, -, -⟩ := idx_facts t
  show A (((cfg0.win 4).blk t).view.emb (ix2 (0 : Fin 1) k)) = _
  refine congrArg A ?_
  funext a; apply Fin.ext
  match a with
  | ⟨0, _⟩ => show win0_4.index t (0 : Fin 2) * 1 + 1 * 0 = 0; omega
  | ⟨1, _⟩ => show win0_4.index t (1 : Fin 2) * 25600 + 1 * k.val = t.val * 25600 + k.val; omega

theorem iblk4_at (c : Dev nD) (t : Fin cfg0.N) (k : Fin 25600) :
    iblk m c 4 t (ix2 (0 : Fin 1) k) = V m c main_v14 (ix2 (0 : Fin 1) (lane t k)) := by
  unfold iblk
  exact blk4_at (V m c main_v14) t k

/-- Window 5's block at tile `t`, lane `k`, of ANY contents of its array: the row entry of particle t·25600 + k. -/
theorem blk5_at (A : S1x16000000.Idx → Elt F .f32) (t : Fin cfg0.N) (k : Fin 25600) :
    ((cfg0.win 5).blk t).view.read (Elt F) A (ix2 (0 : Fin 1) k) = A (ix2 (0 : Fin 1) (lane t k)) := by
  obtain ⟨-, -, -, -, -, -, -, -, -, -, e5a, e5b⟩ := idx_facts t
  show A (((cfg0.win 5).blk t).view.emb (ix2 (0 : Fin 1) k)) = _
  refine congrArg A ?_
  funext a; apply Fin.ext
  match a with
  | ⟨0, _⟩ => show win0_5.index t (0 : Fin 2) * 1 + 1 * 0 = 0; omega
  | ⟨1, _⟩ => show win0_5.index t (1 : Fin 2) * 25600 + 1 * k.val = t.val * 25600 + k.val; omega

theorem iblk5_at (c : Dev nD) (t : Fin cfg0.N) (k : Fin 25600) :
    iblk m c 5 t (ix2 (0 : Fin 1) k) = V m c main_v15 (ix2 (0 : Fin 1) (lane t k)) := by
  unfold iblk
  exact blk5_at (V m c main_v15) t k

/-- A column sliced out of an N x 3 array, flattened, and laid out as one row, read at (0, n): the array's entry (n, j). -/
theorem col_row_apply {α : Type} (X : S16000000x3.Idx → α) (j : Fin 3) (hs : S16000000x3.Slices ![0, j.val] S16000000x1)
    (h1 : S16000000x1.ShapeCasts S16000000) (h2 : S16000000.ShapeCasts S1x16000000) (n : Fin 16000000) :
    shapeCast S1x16000000 (shapeCast S16000000 (extractStridedSlice S16000000x1 ![0, j.val] X hs) h1) h2 (ix2 (0 : Fin 1) n) = X (ix2 n j) := by
  rw [shapeCast_apply _ h2 (ix2 (0 : Fin 1) n) (ix1 n) (by
        rw [Shape.rowMajor_val_one, Shape.rowMajor_val_two]; show n.val = 0 * 16000000 + n.val; omega),
    shapeCast_apply _ h1 (ix1 n) (ix2 n (0 : Fin 1)) (by
        rw [Shape.rowMajor_val_two, Shape.rowMajor_val_one]; show n.val * 1 + 0 = n.val; omega),
    extractStridedSlice_apply ![0, j.val] X hs (ix2 n (0 : Fin 1)) (ix2 n j) (fun a => by
      match a with
      | ⟨0, _⟩ => show n.val = 0 + n.val; omega
      | ⟨1, _⟩ => show j.val = j.val + 0; omega)]

/-- The array window 0 stages is column 0 of the positions, laid out as one row. -/
theorem V_main_v2_at (c : Dev nD) (n : Fin 16000000) :
    V m c main_v2 (ix2 (0 : Fin 1) n) = m ((c : Thread nD τ).loc main_arg0) (ix2 n (0 : Fin 3)) := by
  have e : (V m c main_v2 : S1x16000000.Idx → Elt F .f32) = shapeCast S1x16000000 (shapeCast S16000000 (extractStridedSlice S16000000x1 ![0, 0] (m ((c : Thread nD τ).loc main_arg0)) slices_S16000000x3_S16000000x1_0_0) shapeCasts_S16000000x1_S16000000) shapeCasts_S16000000_S1x16000000 := by
    dsimp only [V, V0]
    simp only [hostOps0, List.flatten_cons, List.flatten_nil, List.append_nil, List.cons_append, List.nil_append]
    after_results; rfl
  rw [e]
  exact col_row_apply _ (0 : Fin 3) _ _ _ n

/-- The array window 1 stages is column 1 of the positions, laid out as one row. -/
theorem V_main_v5_at (c : Dev nD) (n : Fin 16000000) :
    V m c main_v5 (ix2 (0 : Fin 1) n) = m ((c : Thread nD τ).loc main_arg0) (ix2 n (1 : Fin 3)) := by
  have e : (V m c main_v5 : S1x16000000.Idx → Elt F .f32) = shapeCast S1x16000000 (shapeCast S16000000 (extractStridedSlice S16000000x1 ![0, 1] (m ((c : Thread nD τ).loc main_arg0)) slices_S16000000x3_S16000000x1_0_1) shapeCasts_S16000000x1_S16000000) shapeCasts_S16000000_S1x16000000 := by
    dsimp only [V, V0]
    simp only [hostOps0, List.flatten_cons, List.flatten_nil, List.append_nil, List.cons_append, List.nil_append]
    after_results; rfl
  rw [e]
  exact col_row_apply _ (1 : Fin 3) _ _ _ n

/-- The array window 2 stages is column 0 of the velocities, laid out as one row. -/
theorem V_main_v8_at (c : Dev nD) (n : Fin 16000000) :
    V m c main_v8 (ix2 (0 : Fin 1) n) = m ((c : Thread nD τ).loc main_arg1) (ix2 n (0 : Fin 3)) := by
  have e : (V m c main_v8 : S1x16000000.Idx → Elt F .f32) = shapeCast S1x16000000 (shapeCast S16000000 (extractStridedSlice S16000000x1 ![0, 0] (m ((c : Thread nD τ).loc main_arg1)) slices_S16000000x3_S16000000x1_0_0) shapeCasts_S16000000x1_S16000000) shapeCasts_S16000000_S1x16000000 := by
    dsimp only [V, V0]
    simp only [hostOps0, List.flatten_cons, List.flatten_nil, List.append_nil, List.cons_append, List.nil_append]
    after_results; rfl
  rw [e]
  exact col_row_apply _ (0 : Fin 3) _ _ _ n

/-- The array window 3 stages is column 1 of the velocities, laid out as one row. -/
theorem V_main_v11_at (c : Dev nD) (n : Fin 16000000) :
    V m c main_v11 (ix2 (0 : Fin 1) n) = m ((c : Thread nD τ).loc main_arg1) (ix2 n (1 : Fin 3)) := by
  have e : (V m c main_v11 : S1x16000000.Idx → Elt F .f32) = shapeCast S1x16000000 (shapeCast S16000000 (extractStridedSlice S16000000x1 ![0, 1] (m ((c : Thread nD τ).loc main_arg1)) slices_S16000000x3_S16000000x1_0_1) shapeCasts_S16000000x1_S16000000) shapeCasts_S16000000_S1x16000000 := by
    dsimp only [V, V0]
    simp only [hostOps0, List.flatten_cons, List.flatten_nil, List.append_nil, List.cons_append, List.nil_append]
    after_results; rfl
  rw [e]
  exact col_row_apply _ (1 : Fin 3) _ _ _ n

/-- The array window 4 stages is column 2 of the velocities, laid out as one row. -/
theorem V_main_v14_at (c : Dev nD) (n : Fin 16000000) :
    V m c main_v14 (ix2 (0 : Fin 1) n) = m ((c : Thread nD τ).loc main_arg1) (ix2 n (2 : Fin 3)) := by
  have e : (V m c main_v14 : S1x16000000.Idx → Elt F .f32) = shapeCast S1x16000000 (shapeCast S16000000 (extractStridedSlice S16000000x1 ![0, 2] (m ((c : Thread nD τ).loc main_arg1)) slices_S16000000x3_S16000000x1_0_2) shapeCasts_S16000000x1_S16000000) shapeCasts_S16000000_S1x16000000 := by
    dsimp only [V, V0]
    simp only [hostOps0, List.flatten_cons, List.flatten_nil, List.append_nil, List.cons_append, List.nil_append]
    after_results; rfl
  rw [e]
  exact col_row_apply _ (2 : Fin 3) _ _ _ n

/-- The array window 5 stages is the masses laid out as one row. -/
theorem V_main_v15_at (c : Dev nD) (n : Fin 16000000) :
    V m c main_v15 (ix2 (0 : Fin 1) n) = m ((c : Thread nD τ).loc main_arg2) (ix1 n) := by
  have e : (V m c main_v15 : S1x16000000.Idx → Elt F .f32) = shapeCast S1x16000000 (m ((c : Thread nD τ).loc main_arg2)) shapeCasts_S16000000_S1x16000000 := by
    dsimp only [V, V0]
    simp only [hostOps0, List.flatten_cons, List.flatten_nil, List.append_nil, List.cons_append, List.nil_append]
    after_results; rfl
  rw [e]
  exact shapeCast_apply _ _ (ix2 (0 : Fin 1) n) (ix1 n) (by
    rw [Shape.rowMajor_val_one, Shape.rowMajor_val_two]; show n.val = 0 * 16000000 + n.val; omega)

end Cert.KernelIdeal.Hist

end
-- ==== Proof.Ideal.TableSum.lean ====
/-
  The table of bin sums after all the tiles. One tile adds, at entry (b, f), the sum over its 25,600 lanes of the
  one-hot entry times the lane's moment; lane k of tile t is particle t·25600 + k, so after tile n the entry is the
  cleared value plus the sum over the first (n + 1)·25600 particles, and after the last of the 625 tiles over all
  16,000,000. The one-hot entry is 1 exactly for the particles whose bin is b, so the sum is the specification's
  table. Only associativity of the sum and 0·x = 0, 1·x = x are used: nothing here asks an entry to be finite.
-/
import proofs.«119832_j4741643894785_1_alg».proof.Proof.Ideal.StepAt
import proofs.«119832_j4741643894785_1_alg».proof.Proof.Ideal.Blocks

set_option maxRecDepth 16384

noncomputable section

open scoped BigOperators

namespace Cert.KernelIdeal.Hist

open Cert.KernelIdeal Cert.KernelIdeal.Gen
open Idealize.ShloMosaic Idealize.ShloMosaic.TcCoe Idealize.ShloMosaic.ValueIdx

local notation "dd" => dot_S56x25600_S7x25600_S56x7_1_1_0_0_n_n

open Finset

variable (m : (ℓ : Loc nD τ sig) → Buf (Elt Ideal) ℓ)

/-- The three arguments on core `c`. -/
abbrev posOf (c : Dev nD) : Cert.Disk.SPos.Idx → EReal := m ((c : Thread nD τ).loc main_arg0)
abbrev velOf (c : Dev nD) : Cert.Disk.SPos.Idx → EReal := m ((c : Thread nD τ).loc main_arg1)
abbrev massOf (c : Dev nD) : Cert.Disk.SMass.Idx → EReal := m ((c : Thread nD τ).loc main_arg2)

/-- What particle `n` adds to entry (b, f): its one-hot entry times its moment (nothing past the last particle). -/
def term (c : Dev nD) (b : Fin 56) (f : Fin 7) (n : ℕ) : EReal :=
  if h : n < 16000000 then
    hot (posOf m c (ix2 ⟨n, h⟩ (0 : Fin 3))) (posOf m c (ix2 ⟨n, h⟩ (1 : Fin 3))) b
      * Cert.Disk.momentOf (posOf m c) (velOf m c) (massOf m c) ⟨n, h⟩ f
  else 0

/-- One tile's sum over its lanes is the sum of the terms of its 25,600 particles. -/
theorem tile_sum (c : Dev nD) (t : Fin cfg0.N) (b : Fin 56) (f : Fin 7) :
    (∑ k : Fin 25600, hot (iblk m c 0 t (ix2 (0 : Fin 1) k)) (iblk m c 1 t (ix2 (0 : Fin 1) k)) b
        * Cert.Disk.moment (iblk m c 0 t (ix2 (0 : Fin 1) k)) (iblk m c 1 t (ix2 (0 : Fin 1) k)) (iblk m c 2 t (ix2 (0 : Fin 1) k)) (iblk m c 3 t (ix2 (0 : Fin 1) k)) (iblk m c 4 t (ix2 (0 : Fin 1) k)) (iblk m c 5 t (ix2 (0 : Fin 1) k)) f)
      = ∑ j ∈ range 25600, term m c b f (t.val * 25600 + j) := by
  rw [Finset.sum_range]
  refine Finset.sum_congr rfl fun k _ => ?_
  rw [iblk0_at, iblk1_at, iblk2_at, iblk3_at, iblk4_at, iblk5_at,
    V_main_v2_at, V_main_v5_at, V_main_v8_at, V_main_v11_at, V_main_v14_at, V_main_v15_at]
  unfold term
  rw [dif_pos (lane t k).isLt]
  rfl

theorem accAt_first (c : Dev nD) (hn : 0 < cfg0.N) :
    accAt m c 0 hn = outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (cond_of_zero ⟨0, hn⟩ rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) := rfl

theorem accAt_next (c : Dev nD) (n : ℕ) (hn : n + 1 < cfg0.N) :
    accAt m c (n + 1) hn = outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (not_cond_of_pos ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt m c n (Nat.lt_of_succ_lt hn)) := rfl

/-- After tile `n`: the cleared value plus the terms of the first (n + 1)·25600 particles. -/
theorem accAt_apply (c : Dev nD) (b : Fin 56) (f : Fin 7) : ∀ (n : ℕ) (hn : n < cfg0.N),
    accAt m c n hn (ix2 b f) = Cert.Disk.zeroW + ∑ j ∈ range ((n + 1) * 25600), term m c b f j
  | 0, hn => by
    rw [accAt_first, outFirst_eq, step_apply, tile_sum]
    show Cert.Disk.zeroW + _ = _
    refine congrArg (Cert.Disk.zeroW + ·) ?_
    rw [Nat.zero_add, Nat.one_mul]
    refine Finset.sum_congr rfl fun j _ => ?_
    show term m c b f (0 * 25600 + j) = _
    rw [Nat.zero_mul, Nat.zero_add]
  | n + 1, hn => by
    rw [accAt_next, outLater_eq, step_apply, tile_sum, accAt_apply c b f n (Nat.lt_of_succ_lt hn), add_assoc]
    refine congrArg (Cert.Disk.zeroW + ·) ?_
    rw [show (n + 1 + 1) * 25600 = (n + 1) * 25600 + 25600 by ring, Finset.sum_range_add]

/-- A particle's bin, read signed, is `b` exactly when its one-hot entry is 1: the sum of the terms over all particles is
    the sum of the moments over the particles of bin `b`. -/
theorem sum_terms (c : Dev nD) (b : Fin 56) (f : Fin 7) :
    ∑ j ∈ range 16000000, term m c b f j
      = ∑ n ∈ univ.filter (fun n : Fin 16000000 => (Cert.Disk.binOf (posOf m c) n).toInt = (b.val : Int)),
          Cert.Disk.momentOf (posOf m c) (velOf m c) (massOf m c) n f := by
  rw [Finset.sum_range, Finset.sum_filter]
  refine Finset.sum_congr rfl fun n _ => ?_
  unfold term
  rw [dif_pos n.isLt, hot_eq]
  show (if (Cert.Disk.binOf (posOf m c) n).toInt = (b.val : Int) then (1 : EReal) else 0) * _ = _
  split
  · rw [one_mul]
  · rw [zero_mul]

/-- THE TABLE after the last tile, at a bin below 50: the specification's. -/
theorem accAt_last (c : Dev nD) (b : Fin 50) (f : Fin 7) (hn : 624 < cfg0.N) :
    accAt m c 624 hn (ix2 (⟨b.val, by have := b.isLt; omega⟩ : Fin 56) f) = Cert.Disk.table (posOf m c) (velOf m c) (massOf m c) b f := by
  rw [accAt_apply, show (624 + 1) * 25600 = 16000000 by norm_num, sum_terms, Cert.Disk.zeroW_eq, zero_add]
  rfl

end Cert.KernelIdeal.Hist

end
-- ==== Proof.Tail.lean ====
/-
  What both programs do with the 50 × 7 table of bin sums.

  Column 0 holds each bin's mass; the other six columns hold the mass-weighted sums of v_r, v_r², v_φ, v_φ², vz, vz².
  The six columns are divided by the mass, giving the means; each dispersion is the square root of the mean square
  minus the squared mean; and the result's six rows are, in order, the mean tangential velocity, the tangential
  dispersion, the mean radial velocity, the radial dispersion, the mean vertical velocity, the vertical dispersion.

  The operations are spelled as the reference program spells them, with the table as a variable; the reference's
  result is this function of its scatter's result.
-/
import proofs.«119832_j4741643894785_1_alg».proof.Proof.RefReadP
import Idealize.ShloMosaic.PureOps.Ideal

noncomputable section

namespace Cert.RefSide

open Cert.ReferenceIdeal Cert.ReferenceIdeal.Gen Cert.ReferenceIdeal.ReadP Idealize.ShloMosaic Idealize.ShloMosaic.TcCoe
  Idealize.SL.Sem Idealize.ShloMosaic.StableHlo

/-- Column 0 of the table (the mass sums), as a 50 × 1 array. -/
def t53 (T : S50x7.Idx → EReal) : (⟨S50x1, .f32⟩ : BufTy).Contents (Elt Ideal) :=
  extractStridedSlice S50x1 ![0, 0] T slices_S50x7_S50x1_0_0

/-- The mass of each bin. -/
def t54 (T : S50x7.Idx → EReal) : (⟨S50, .f32⟩ : BufTy).Contents (Elt Ideal) :=
  shapeCast _ (t53 T) shapeCasts_S50x1_S50

/-- The other six columns of the table. -/
def t55 (T : S50x7.Idx → EReal) : (⟨S50x6, .f32⟩ : BufTy).Contents (Elt Ideal) :=
  extractStridedSlice S50x6 ![0, 1] T slices_S50x7_S50x6_0_1

/-- The masses as a 50 × 1 column. -/
def t56 (T : S50x7.Idx → EReal) : (⟨S50x1, .f32⟩ : BufTy).Contents (Elt Ideal) :=
  broadcastInDim S50x1 ![0] bcast_S50_S50x1_0 (t54 T)

/-- The masses repeated along six columns. -/
def t57 (T : S50x7.Idx → EReal) : (⟨S50x6, .f32⟩ : BufTy).Contents (Elt Ideal) :=
  broadcastInDim S50x6 ![0, 1] bcast_S50x1_S50x6_0_1 (t56 T)

/-- The six mass-weighted means: each of the six columns divided by the mass. -/
def t58 (T : S50x7.Idx → EReal) : (⟨S50x6, .f32⟩ : BufTy).Contents (Elt Ideal) :=
  Host.divf (F := Ideal) (φ := .f32) (t55 T) (t57 T)

/-- Column 0 of the means, as a 50 × 1 array. -/
def t59 (T : S50x7.Idx → EReal) : (⟨S50x1, .f32⟩ : BufTy).Contents (Elt Ideal) :=
  extractStridedSlice S50x1 ![0, 0] (t58 T) slices_S50x6_S50x1_0_0

/-- The mean radial velocity of each bin. -/
def t60 (T : S50x7.Idx → EReal) : (⟨S50, .f32⟩ : BufTy).Contents (Elt Ideal) :=
  shapeCast _ (t59 T) shapeCasts_S50x1_S50

/-- Column 1 of the means, as a 50 × 1 array. -/
def t61 (T : S50x7.Idx → EReal) : (⟨S50x1, .f32⟩ : BufTy).Contents (Elt Ideal) :=
  extractStridedSlice S50x1 ![0, 1] (t58 T) slices_S50x6_S50x1_0_1

/-- The mean squared radial velocity. -/
def t62 (T : S50x7.Idx → EReal) : (⟨S50, .f32⟩ : BufTy).Contents (Elt Ideal) :=
  shapeCast _ (t61 T) shapeCasts_S50x1_S50

/-- Column 2 of the means, as a 50 × 1 array. -/
def t63 (T : S50x7.Idx → EReal) : (⟨S50x1, .f32⟩ : BufTy).Contents (Elt Ideal) :=
  extractStridedSlice S50x1 ![0, 2] (t58 T) slices_S50x6_S50x1_0_2

/-- The mean tangential velocity. -/
def t64 (T : S50x7.Idx → EReal) : (⟨S50, .f32⟩ : BufTy).Contents (Elt Ideal) :=
  shapeCast _ (t63 T) shapeCasts_S50x1_S50

/-- Column 3 of the means, as a 50 × 1 array. -/
def t65 (T : S50x7.Idx → EReal) : (⟨S50x1, .f32⟩ : BufTy).Contents (Elt Ideal) :=
  extractStridedSlice S50x1 ![0, 3] (t58 T) slices_S50x6_S50x1_0_3

/-- The mean squared tangential velocity. -/
def t66 (T : S50x7.Idx → EReal) : (⟨S50, .f32⟩ : BufTy).Contents (Elt Ideal) :=
  shapeCast _ (t65 T) shapeCasts_S50x1_S50

/-- Column 4 of the means, as a 50 × 1 array. -/
def t67 (T : S50x7.Idx → EReal) : (⟨S50x1, .f32⟩ : BufTy).Contents (Elt Ideal) :=
  extractStridedSlice S50x1 ![0, 4] (t58 T) slices_S50x6_S50x1_0_4

/-- The mean vertical velocity. -/
def t68 (T : S50x7.Idx → EReal) : (⟨S50, .f32⟩ : BufTy).Contents (Elt Ideal) :=
  shapeCast _ (t67 T) shapeCasts_S50x1_S50

/-- Column 5 of the means, as a 50 × 1 array. -/
def t69 (T : S50x7.Idx → EReal) : (⟨S50x1, .f32⟩ : BufTy).Contents (Elt Ideal) :=
  extractStridedSlice S50x1 ![0, 5] (t58 T) slices_S50x6_S50x1_0_5

/-- The mean squared vertical velocity. -/
def t70 (T : S50x7.Idx → EReal) : (⟨S50, .f32⟩ : BufTy).Contents (Elt Ideal) :=
  shapeCast _ (t69 T) shapeCasts_S50x1_S50

/-- The square of the mean radial velocity. -/
def t71 (T : S50x7.Idx → EReal) : (⟨S50, .f32⟩ : BufTy).Contents (Elt Ideal) :=
  mulf (F := Ideal) (φ := .f32) (t60 T) (t60 T)

/-- The radial variance: mean square minus squared mean. -/
def t72 (T : S50x7.Idx → EReal) : (⟨S50, .f32⟩ : BufTy).Contents (Elt Ideal) :=
  subf (F := Ideal) (φ := .f32) (t62 T) (t71 T)

/-- The radial dispersion. -/
def t73 (T : S50x7.Idx → EReal) : (⟨S50, .f32⟩ : BufTy).Contents (Elt Ideal) :=
  Host.sqrt (F := Ideal) (φ := .f32) (t72 T)

/-- The square of the mean tangential velocity. -/
def t74 (T : S50x7.Idx → EReal) : (⟨S50, .f32⟩ : BufTy).Contents (Elt Ideal) :=
  mulf (F := Ideal) (φ := .f32) (t64 T) (t64 T)

/-- The tangential variance. -/
def t75 (T : S50x7.Idx → EReal) : (⟨S50, .f32⟩ : BufTy).Contents (Elt Ideal) :=
  subf (F := Ideal) (φ := .f32) (t66 T) (t74 T)

/-- The tangential dispersion. -/
def t76 (T : S50x7.Idx → EReal) : (⟨S50, .f32⟩ : BufTy).Contents (Elt Ideal) :=
  Host.sqrt (F := Ideal) (φ := .f32) (t75 T)

/-- The square of the mean vertical velocity. -/
def t77 (T : S50x7.Idx → EReal) : (⟨S50, .f32⟩ : BufTy).Contents (Elt Ideal) :=
  mulf (F := Ideal) (φ := .f32) (t68 T) (t68 T)

/-- The vertical variance. -/
def t78 (T : S50x7.Idx → EReal) : (⟨S50, .f32⟩ : BufTy).Contents (Elt Ideal) :=
  subf (F := Ideal) (φ := .f32) (t70 T) (t77 T)

/-- The vertical dispersion. -/
def t79 (T : S50x7.Idx → EReal) : (⟨S50, .f32⟩ : BufTy).Contents (Elt Ideal) :=
  Host.sqrt (F := Ideal) (φ := .f32) (t78 T)

/-- Row: the mean tangential velocity. -/
def t80 (T : S50x7.Idx → EReal) : (⟨S1x50, .f32⟩ : BufTy).Contents (Elt Ideal) :=
  broadcastInDim S1x50 ![1] bcast_S50_S1x50_1 (t64 T)

/-- Row: the tangential dispersion. -/
def t81 (T : S50x7.Idx → EReal) : (⟨S1x50, .f32⟩ : BufTy).Contents (Elt Ideal) :=
  broadcastInDim S1x50 ![1] bcast_S50_S1x50_1 (t76 T)

/-- Row: the mean radial velocity. -/
def t82 (T : S50x7.Idx → EReal) : (⟨S1x50, .f32⟩ : BufTy).Contents (Elt Ideal) :=
  broadcastInDim S1x50 ![1] bcast_S50_S1x50_1 (t60 T)

/-- Row: the radial dispersion. -/
def t83 (T : S50x7.Idx → EReal) : (⟨S1x50, .f32⟩ : BufTy).Contents (Elt Ideal) :=
  broadcastInDim S1x50 ![1] bcast_S50_S1x50_1 (t73 T)

/-- Row: the mean vertical velocity. -/
def t84 (T : S50x7.Idx → EReal) : (⟨S1x50, .f32⟩ : BufTy).Contents (Elt Ideal) :=
  broadcastInDim S1x50 ![1] bcast_S50_S1x50_1 (t68 T)

/-- Row: the vertical dispersion. -/
def t85 (T : S50x7.Idx → EReal) : (⟨S1x50, .f32⟩ : BufTy).Contents (Elt Ideal) :=
  broadcastInDim S1x50 ![1] bcast_S50_S1x50_1 (t79 T)

/-- THE TAIL: the six rows joined into the 6 × 50 result. -/
def tail (T : S50x7.Idx → EReal) : S6x50.Idx → EReal :=
  concatenate S6x50 0 [⟨S1x50, (t80 T)⟩, ⟨S1x50, (t81 T)⟩, ⟨S1x50, (t82 T)⟩, ⟨S1x50, (t83 T)⟩, ⟨S1x50, (t84 T)⟩, ⟨S1x50, (t85 T)⟩] concatenates_S1x50_S1x50_S1x50_S1x50_S1x50_S1x50_S6x50_d0

/-- The reference's result is the tail of its scatter's result. -/
theorem val_main_v86_eq_tail (x0 x1 : S16000000x3.Idx → EReal) (x2 : S16000000.Idx → EReal) :
    val_main_v86 (F := Ideal) x0 x1 x2 = tail (val_main_v52 (F := Ideal) x0 x1 x2) := rfl

end Cert.RefSide

end
-- ==== Proof.Ideal.Result.lean ====
/-
  The kernel's result. The table's staging buffer is written back once, after the last tile, and its block is the whole
  56 x 7 array, so after the run the array holds what the accumulation left at tile 624. The thirty-five lines after
  the region are: keep rows 0 … 49, then the lines that both programs share (the mass column out, the six other columns
  divided by it, three dispersions, six rows joined). Rows 0 … 49 of the table are the specification's table, so the
  run ends with the result at the shared lines applied to the specification's table, the arguments unchanged.
-/
import proofs.«119832_j4741643894785_1_alg».proof.Proof.Ideal.TableSum
import proofs.«119832_j4741643894785_1_alg».proof.Proof.Tail
import Idealize.ShloMosaic.Lib.Pipeline.FrameSuffix
import Idealize.ShloMosaic.Lib.StableHlo.Run

set_option maxRecDepth 16384

noncomputable section

open scoped BigOperators

namespace Cert.KernelIdeal.Hist

open Cert.KernelIdeal Cert.KernelIdeal.Gen
open Idealize.ShloMosaic Idealize.ShloMosaic.TcCoe Idealize.ShloMosaic.ValueIdx

local notation "dd" => dot_S56x25600_S7x25600_S56x7_1_1_0_0_n_n

open Idealize.SL Idealize.SL.Sem Idealize.ShloMosaic.StableHlo

variable (m : (ℓ : Loc nD τ sig) → Buf (Elt Ideal) ℓ) (ρ : Dev nD → PrngReg)

/-- The table's block index is (0, 0) at every tile. -/
theorem idx_facts6 : ∀ t : Fin cfg0.N, win0_6.index t (0 : Fin 2) = 0 ∧ win0_6.index t (1 : Fin 2) = 0 :=
  (by decide +kernel : ∀ t : Fin grid0.N, _)

theorem last_lt : 624 < cfg0.N := by rw [show cfg0.N = 625 from N_0]; omega

/-- The table's block is the whole array: reading it back is the identity. -/
theorem blk6_read (G : S56x7.Idx → EReal) (t : Fin cfg0.N) :
    ((cfg0.win 6).blk t).view.read (Elt Ideal) G = G := by
  obtain ⟨e0, e1⟩ := idx_facts6 t
  funext y
  show G (((cfg0.win 6).blk t).view.emb y) = G y
  refine congrArg G ?_
  funext a; apply Fin.ext
  match a with
  | ⟨0, _⟩ => show win0_6.index t (0 : Fin 2) * 56 + 1 * (y 0).val = (y 0).val; omega
  | ⟨1, _⟩ => show win0_6.index t (1 : Fin 2) * 7 + 1 * (y 1).val = (y 1).val; omega

/-- An index of the table is in a tile's block iff each coordinate is in the block's range. -/
theorem mem_blk6 (t : Fin cfg0.N) (i : S56x7.Idx) :
    i ∈ ((cfg0.win 6).blk t).view.set ↔ ∀ a : Fin 2, win0_6.index t a * S56x7.size a ≤ (i a).val ∧ (i a).val < win0_6.index t a * S56x7.size a + S56x7.size a := by
  show i ∈ ((View.whole main_v16).slice (win0_6.rect t)).set ↔ _
  rw [View.set_slice_whole, Rect.mem_set_unit]
  exact Iff.rfl

/-- THE TABLE after the run: what the accumulation left at the last tile. -/
theorem final6 (c : Dev nD) : (dats m 0 c).arrAt 6 cfg0.N = accAt m c 624 last_lt := by
  refine (dats m 0 c).arrAt_eq_of_cover 6 (accAt m c 624 last_lt) (fun t hf => ?_) (fun i => ⟨⟨624, last_lt⟩, (flush0_6 _).mpr rfl, ?_⟩)
  · rw [blk6_read]
    show (dats m 0 c).after 6 t = _
    rw [after0_6]
    have hN : t.val < 625 := lt_of_lt_of_eq t.isLt (show cfg0.N = 625 from N_0)
    have h624 : t.val = 624 := by have := (flush0_6 t).mp hf; omega
    obtain ⟨n, hn⟩ := t
    have : n = 624 := h624
    subst this
    rfl
  · rw [mem_blk6]
    obtain ⟨e0, e1⟩ := idx_facts6 ⟨624, last_lt⟩
    intro a
    match a with
    | ⟨0, _⟩ => show win0_6.index ⟨624, last_lt⟩ (0 : Fin 2) * 56 ≤ (i 0).val ∧ (i 0).val < win0_6.index ⟨624, last_lt⟩ (0 : Fin 2) * 56 + 56; have h0 : (i 0).val < 56 := (i 0).isLt; omega
    | ⟨1, _⟩ => show win0_6.index ⟨624, last_lt⟩ (1 : Fin 2) * 7 ≤ (i 1).val ∧ (i 1).val < win0_6.index ⟨624, last_lt⟩ (1 : Fin 2) * 7 + 7; have h1 : (i 1).val < 7 := (i 1).isLt; omega

/-- Rows 0 … 49 of the table are the specification's table. -/
theorem table_rows (c : Dev nD) :
    extractStridedSlice S50x7 ![0, 0] ((dats m 0 c).arrAt 6 cfg0.N) slices_S56x7_S50x7_0_0
      = fun i => Cert.Disk.table (posOf m c) (velOf m c) (massOf m c) (i 0) (i 1) := by
  funext i
  have hi0 : (i 0).val < 50 := (i 0).isLt
  have key := accAt_last m c (i 0) (i 1) last_lt
  rw [final6]
  generalize accAt m c 624 last_lt = G at key ⊢
  rw [extractStridedSlice_apply ![0, 0] G slices_S56x7_S50x7_0_0 i
    (ix2 (⟨(i 0).val, by omega⟩ : Fin 56) (i 1)) (fun a => by
      match a with
      | ⟨0, _⟩ => show (i 0).val = 0 + (i 0).val; omega
      | ⟨1, _⟩ => show (i 1).val = 0 + (i 1).val; omega)]
  exact key

set_option maxHeartbeats 4000000 in
/-- The thirty-five lines after the region, from ANY contents of the buffers: the result is the shared lines applied to
    rows 0 … 49 of whatever the table's buffer holds. -/
theorem tail_lines (W : Valuation τ sig (Elt Ideal)) :
    StableHlo.after hostOps1 W (Proc.devRef .tc main_v51)
      = Cert.RefSide.tail (extractStridedSlice S50x7 ![0, 0] (W (Proc.devRef .tc main_v16)) slices_S56x7_S50x7_0_0) := by
  after_results_simp <;> rfl

/-- The result buffer after the lines that follow the region: the shared lines applied to rows 0 … 49 of the table. -/
theorem result_eq (c : Dev nD) :
    Pipeline.afterTail₀ cfgs (dats m) 0 (V0 m) [hostOps1] c main_v51
      = Cert.RefSide.tail (extractStridedSlice S50x7 ![0, 0] ((dats m 0 c).arrAt 6 cfg0.N) slices_S56x7_S50x7_0_0) := by
  unfold Pipeline.afterTail₀
  show StableHlo.after hostOps1 _ (Proc.devRef .tc main_v51) = _
  rw [tail_lines]
  have hw : Pipeline.withArrays (cfgs 0).spec c (V0 m c) (fun w => (dats m 0 c).arrAt w (cfgs 0).N) (Proc.devRef .tc main_v16)
      = (dats m 0 c).arrAt 6 (cfgs 0).N := Pipeline.withArrays_arr (cfgs 0).spec launch0.win.arr_inj c _ _ 6
  rw [hw]

/-- THE KERNEL'S RUN, READ: the result is the shared lines applied to the specification's table; the arguments end as
    launched. -/
theorem run_value : θ_run defs (onTc (τ := τ) (main (F := Ideal))) ⟨m, fun _ => 0, ρ⟩ (fun r => ∀ c : Dev nD,
      r.2.mem ((c.tc : Thread nD τ).loc main_v51)
        = Cert.RefSide.tail (fun i => Cert.Disk.table (posOf m c) (velOf m c) (massOf m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v51 (Pipeline.mem_restRefs_of main_v51 (by decide) (by decide))).trans
        ((result_eq m c).trans (congrArg Cert.RefSide.tail (table_rows m c))),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hist

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.RefTable.lean ====
/-
  The reference's scatter, read at an entry, is the specification's table.

  The reference slices the coordinates x, y out of the positions and vx, vy, vz out of the velocities, forms the
  radius, the bin word, the mask, the masked bin and the masked mass, the radial and tangential velocities, and
  lays 1, v_r, v_r·v_r, v_φ, v_φ·v_φ, vz, vz·vz side by side as the seven columns of a 16,000,000 × 7 array; it
  multiplies every column by the masked mass and scatter-adds the rows into a zero 50 × 7 table by the masked bins.

  Each of these operations reads one element of each operand, so particle e's row of the updates is, entry by
  entry, the specification's seven numbers in the reference's grouping (weight · (v · v)), which equal the
  specification's own grouping by associativity; row e of the scatter indices is the specification's bin of
  particle e; and a scatter of rows into a zero table, read at (b, f), is the sum of column f of the updates over
  the rows whose index is b.
-/
import proofs.«119832_j4741643894785_1_alg».proof.Proof.RefReadP
import proofs.«119832_j4741643894785_1_alg».proof.Proof.LibRowScatter
import proofs.«119832_j4741643894785_1_alg».proof.Proof.Spec

noncomputable section

open scoped BigOperators

namespace Cert.RefSide

open Cert.ReferenceIdeal Cert.ReferenceIdeal.Gen Cert.ReferenceIdeal.ReadP Idealize.ShloMosaic Idealize.ShloMosaic.ValueIdx
  Cert.Disk Cert.LibRowScatter Finset

/-! ## The coordinates of one particle -/

theorem v1_at (P : S16000000x3.Idx → EReal) (e : Fin 16000000) :
    val_main_v1 (F := Ideal) P (ix1 e) = P (ix2 e (0 : Fin 3)) := by
  rw [val_main_v1_apply, val_main_v0_apply]
  congr 1
  funext a
  match a with
  | ⟨0, _⟩ => exact Fin.ext (Nat.div_one _)
  | ⟨1, _⟩ => rfl

theorem v3_at (P : S16000000x3.Idx → EReal) (e : Fin 16000000) :
    val_main_v3 (F := Ideal) P (ix1 e) = P (ix2 e (1 : Fin 3)) := by
  rw [val_main_v3_apply, val_main_v2_apply]
  congr 1
  funext a
  match a with
  | ⟨0, _⟩ => exact Fin.ext (Nat.div_one _)
  | ⟨1, _⟩ => rfl

theorem v5_at (V : S16000000x3.Idx → EReal) (e : Fin 16000000) :
    val_main_v5 (F := Ideal) V (ix1 e) = V (ix2 e (0 : Fin 3)) := by
  rw [val_main_v5_apply, val_main_v4_apply]
  congr 1
  funext a
  match a with
  | ⟨0, _⟩ => exact Fin.ext (Nat.div_one _)
  | ⟨1, _⟩ => rfl

theorem v7_at (V : S16000000x3.Idx → EReal) (e : Fin 16000000) :
    val_main_v7 (F := Ideal) V (ix1 e) = V (ix2 e (1 : Fin 3)) := by
  rw [val_main_v7_apply, val_main_v6_apply]
  congr 1
  funext a
  match a with
  | ⟨0, _⟩ => exact Fin.ext (Nat.div_one _)
  | ⟨1, _⟩ => rfl

theorem v9_at (V : S16000000x3.Idx → EReal) (e : Fin 16000000) :
    val_main_v9 (F := Ideal) V (ix1 e) = V (ix2 e (2 : Fin 3)) := by
  rw [val_main_v9_apply, val_main_v8_apply]
  congr 1
  funext a
  match a with
  | ⟨0, _⟩ => exact Fin.ext (Nat.div_one _)
  | ⟨1, _⟩ => rfl

/-- The radius. -/
theorem v13_at (P : S16000000x3.Idx → EReal) (e : Fin 16000000) :
    val_main_v13 (F := Ideal) P (ix1 e) = radius (P (ix2 e (0 : Fin 3))) (P (ix2 e (1 : Fin 3))) := by
  rw [val_main_v13_apply, val_main_v12_apply, val_main_v10_apply, val_main_v11_apply, v1_at, v3_at]
  rfl

/-! ## The bin and the weight of one particle -/

/-- The bin word. -/
theorem v19_at (P : S16000000x3.Idx → EReal) (e : Fin 16000000) :
    val_main_v19 (F := Ideal) P (ix1 e) = binWord (P (ix2 e (0 : Fin 3))) (P (ix2 e (1 : Fin 3))) := by
  rw [val_main_v19_apply, val_main_v18_apply, val_main_v17_apply, val_main_v15_apply, v13_at, val_main_v14_apply,
    val_main_v16_apply]
  rfl

/-- Whether the particle counts. -/
theorem v24_at (P : S16000000x3.Idx → EReal) (e : Fin 16000000) :
    val_main_v24 (F := Ideal) P (ix1 e) = counts (P (ix2 e (0 : Fin 3))) (P (ix2 e (1 : Fin 3))) := by
  rw [val_main_v24_apply, val_main_v21_apply, val_main_v23_apply, v19_at, val_main_v20_apply, val_main_v22_apply]
  rfl

/-- The bin the particle is added into. -/
theorem v25_at (P : S16000000x3.Idx → EReal) (e : Fin 16000000) :
    val_main_v25 (F := Ideal) P (ix1 e) = bin (P (ix2 e (0 : Fin 3))) (P (ix2 e (1 : Fin 3))) := by
  rw [val_main_v25_apply, v24_at, v19_at, val_main_call0_v1_apply]
  rfl

/-- The weight. -/
theorem v26_at (P : S16000000x3.Idx → EReal) (M : S16000000.Idx → EReal) (e : Fin 16000000) :
    val_main_v26 (F := Ideal) P M (ix1 e)
      = weight (P (ix2 e (0 : Fin 3))) (P (ix2 e (1 : Fin 3))) (M (ix1 e)) := by
  rw [val_main_v26_apply, v24_at, val_main_call1_v1_apply]
  rfl

/-- The radial velocity. -/
theorem v30_at (P V : S16000000x3.Idx → EReal) (e : Fin 16000000) :
    val_main_v30 (F := Ideal) P V (ix1 e)
      = vRad (P (ix2 e (0 : Fin 3))) (P (ix2 e (1 : Fin 3))) (V (ix2 e (0 : Fin 3))) (V (ix2 e (1 : Fin 3))) := by
  rw [val_main_v30_apply, val_main_v29_apply, val_main_v27_apply, val_main_v28_apply, v1_at, v3_at, v5_at, v7_at,
    v13_at]
  rfl

/-- The tangential velocity. -/
theorem v34_at (P V : S16000000x3.Idx → EReal) (e : Fin 16000000) :
    val_main_v34 (F := Ideal) P V (ix1 e)
      = vTan (P (ix2 e (0 : Fin 3))) (P (ix2 e (1 : Fin 3))) (V (ix2 e (0 : Fin 3))) (V (ix2 e (1 : Fin 3))) := by
  rw [val_main_v34_apply, val_main_v33_apply, val_main_v31_apply, val_main_v32_apply, v1_at, v3_at, v5_at, v7_at,
    v13_at]
  rfl

/-! ## The seven columns, each read at row e -/

theorem v39_at (e : Fin 16000000) : val_main_v39 (F := Ideal) (ix2 e (0 : Fin 1)) = oneW := by
  rw [val_main_v39_apply, val_main_v35_apply]
  rfl

theorem v40_at (P V : S16000000x3.Idx → EReal) (e : Fin 16000000) :
    val_main_v40 (F := Ideal) P V (ix2 e (0 : Fin 1))
      = vRad (P (ix2 e (0 : Fin 3))) (P (ix2 e (1 : Fin 3))) (V (ix2 e (0 : Fin 3))) (V (ix2 e (1 : Fin 3))) := by
  have h : idx_main_v40 (ix2 e (0 : Fin 1)) = ix1 e := by
    funext a
    match a with
    | ⟨0, _⟩ => rfl
  rw [val_main_v40_apply, h, v30_at]

theorem v41_at (P V : S16000000x3.Idx → EReal) (e : Fin 16000000) :
    val_main_v41 (F := Ideal) P V (ix2 e (0 : Fin 1))
      = vRad (P (ix2 e (0 : Fin 3))) (P (ix2 e (1 : Fin 3))) (V (ix2 e (0 : Fin 3))) (V (ix2 e (1 : Fin 3)))
        * vRad (P (ix2 e (0 : Fin 3))) (P (ix2 e (1 : Fin 3))) (V (ix2 e (0 : Fin 3))) (V (ix2 e (1 : Fin 3))) := by
  have h : idx_main_v41 (ix2 e (0 : Fin 1)) = ix1 e := by
    funext a
    match a with
    | ⟨0, _⟩ => rfl
  rw [val_main_v41_apply, h, val_main_v36_apply, v30_at]
  rfl

theorem v42_at (P V : S16000000x3.Idx → EReal) (e : Fin 16000000) :
    val_main_v42 (F := Ideal) P V (ix2 e (0 : Fin 1))
      = vTan (P (ix2 e (0 : Fin 3))) (P (ix2 e (1 : Fin 3))) (V (ix2 e (0 : Fin 3))) (V (ix2 e (1 : Fin 3))) := by
  have h : idx_main_v42 (ix2 e (0 : Fin 1)) = ix1 e := by
    funext a
    match a with
    | ⟨0, _⟩ => rfl
  rw [val_main_v42_apply, h, v34_at]

theorem v43_at (P V : S16000000x3.Idx → EReal) (e : Fin 16000000) :
    val_main_v43 (F := Ideal) P V (ix2 e (0 : Fin 1))
      = vTan (P (ix2 e (0 : Fin 3))) (P (ix2 e (1 : Fin 3))) (V (ix2 e (0 : Fin 3))) (V (ix2 e (1 : Fin 3)))
        * vTan (P (ix2 e (0 : Fin 3))) (P (ix2 e (1 : Fin 3))) (V (ix2 e (0 : Fin 3))) (V (ix2 e (1 : Fin 3))) := by
  have h : idx_main_v43 (ix2 e (0 : Fin 1)) = ix1 e := by
    funext a
    match a with
    | ⟨0, _⟩ => rfl
  rw [val_main_v43_apply, h, val_main_v37_apply, v34_at]
  rfl

theorem v44_at (V : S16000000x3.Idx → EReal) (e : Fin 16000000) :
    val_main_v44 (F := Ideal) V (ix2 e (0 : Fin 1)) = V (ix2 e (2 : Fin 3)) := by
  have h : idx_main_v44 (ix2 e (0 : Fin 1)) = ix1 e := by
    funext a
    match a with
    | ⟨0, _⟩ => rfl
  rw [val_main_v44_apply, h, v9_at]

theorem v45_at (V : S16000000x3.Idx → EReal) (e : Fin 16000000) :
    val_main_v45 (F := Ideal) V (ix2 e (0 : Fin 1)) = V (ix2 e (2 : Fin 3)) * V (ix2 e (2 : Fin 3)) := by
  have h : idx_main_v45 (ix2 e (0 : Fin 1)) = ix1 e := by
    funext a
    match a with
    | ⟨0, _⟩ => rfl
  rw [val_main_v45_apply, h, val_main_v38_apply, v9_at]
  rfl

/-! ## The concatenation of the seven columns: entry (e, f) is column f at (e, 0) -/

theorem v46_at0 (P V : S16000000x3.Idx → EReal) (e : Fin 16000000) :
    val_main_v46 (F := Ideal) P V (ix2 e (0 : Fin 7)) = val_main_v39 (F := Ideal) (ix2 e (0 : Fin 1)) := by
  unfold val_main_v46
  refine concatenate_apply_piece (t := S16000000x7) 1 _ _ (ix2 e (0 : Fin 7)) 0 ?_ S16000000x1
    (val_main_v39 (F := Ideal)) rfl rfl 0 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at1 (P V : S16000000x3.Idx → EReal) (e : Fin 16000000) :
    val_main_v46 (F := Ideal) P V (ix2 e (1 : Fin 7)) = val_main_v40 (F := Ideal) P V (ix2 e (0 : Fin 1)) := by
  unfold val_main_v46
  refine concatenate_apply_piece (t := S16000000x7) 1 _ _ (ix2 e (1 : Fin 7)) 1 ?_ S16000000x1
    (val_main_v40 (F := Ideal) P V) rfl rfl 1 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at2 (P V : S16000000x3.Idx → EReal) (e : Fin 16000000) :
    val_main_v46 (F := Ideal) P V (ix2 e (2 : Fin 7)) = val_main_v41 (F := Ideal) P V (ix2 e (0 : Fin 1)) := by
  unfold val_main_v46
  refine concatenate_apply_piece (t := S16000000x7) 1 _ _ (ix2 e (2 : Fin 7)) 2 ?_ S16000000x1
    (val_main_v41 (F := Ideal) P V) rfl rfl 2 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at3 (P V : S16000000x3.Idx → EReal) (e : Fin 16000000) :
    val_main_v46 (F := Ideal) P V (ix2 e (3 : Fin 7)) = val_main_v42 (F := Ideal) P V (ix2 e (0 : Fin 1)) := by
  unfold val_main_v46
  refine concatenate_apply_piece (t := S16000000x7) 1 _ _ (ix2 e (3 : Fin 7)) 3 ?_ S16000000x1
    (val_main_v42 (F := Ideal) P V) rfl rfl 3 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at4 (P V : S16000000x3.Idx → EReal) (e : Fin 16000000) :
    val_main_v46 (F := Ideal) P V (ix2 e (4 : Fin 7)) = val_main_v43 (F := Ideal) P V (ix2 e (0 : Fin 1)) := by
  unfold val_main_v46
  refine concatenate_apply_piece (t := S16000000x7) 1 _ _ (ix2 e (4 : Fin 7)) 4 ?_ S16000000x1
    (val_main_v43 (F := Ideal) P V) rfl rfl 4 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at5 (P V : S16000000x3.Idx → EReal) (e : Fin 16000000) :
    val_main_v46 (F := Ideal) P V (ix2 e (5 : Fin 7)) = val_main_v44 (F := Ideal) V (ix2 e (0 : Fin 1)) := by
  unfold val_main_v46
  refine concatenate_apply_piece (t := S16000000x7) 1 _ _ (ix2 e (5 : Fin 7)) 5 ?_ S16000000x1
    (val_main_v44 (F := Ideal) V) rfl rfl 5 ?_ (ix2 e (0 : Fin 1)) ?_ ?_
  · show (_ : Nat) < 7
    omega
  · rfl
  · intro b hb
    match b with
    | ⟨0, _⟩ => rfl
    | ⟨1, _⟩ => exact (hb rfl).elim
  · rfl

theorem v46_at6 (P V : S16000000x3.Idx → EReal) (e : Fin 16000000) :
    val_main_v46 (F := Ideal) P V (ix2 e (6 : Fin 7)) = val_main_v45 (F := Ideal) V (ix2 e (0 : Fin 1)) := by
  unfold val_main_v46
  refine concatenate_apply_piece (t := S16000000x7) 1 _ _ (ix2 e (6 : Fin 7)) 6 ?_ S16000000x1
    (val_main_v45 (F := Ideal) V) rfl rfl 6 ?_ (ix2 e (0 : Fin 1)) ?_ ?_
  · show (_ : Nat) < 7
    omega
  · rfl
  · intro b hb
    match b with
    | ⟨0, _⟩ => rfl
    | ⟨1, _⟩ => exact (hb rfl).elim
  · rfl

/-- The weight broadcast along the seven columns. -/
theorem v48_at (P : S16000000x3.Idx → EReal) (M : S16000000.Idx → EReal) (e : Fin 16000000) (f : Fin 7) :
    val_main_v48 (F := Ideal) P M (ix2 e f)
      = weight (P (ix2 e (0 : Fin 3))) (P (ix2 e (1 : Fin 3))) (M (ix1 e)) := by
  have h : idx_main_v47 (idx_main_v48 (ix2 e f)) = ix1 e := by
    funext a
    match a with
    | ⟨0, _⟩ => rfl
  rw [val_main_v48_apply, val_main_v47_apply, h, v26_at]

/-- The updates: entry (e, f) is the weight times 1, v_r, v_r·v_r, v_φ, v_φ·v_φ, vz, vz·vz — the reference's grouping. -/
theorem v49_at (P V : S16000000x3.Idx → EReal) (M : S16000000.Idx → EReal) (e : Fin 16000000) (f : Fin 7) :
    val_main_v49 (F := Ideal) P V M (ix2 e f)
      = momentAlt (P (ix2 e (0 : Fin 3))) (P (ix2 e (1 : Fin 3))) (V (ix2 e (0 : Fin 3))) (V (ix2 e (1 : Fin 3)))
          (V (ix2 e (2 : Fin 3))) (M (ix1 e)) f := by
  rw [val_main_v49_apply, v48_at]
  match f with
  | ⟨0, _⟩ => exact congrArg _ ((v46_at0 P V e).trans (v39_at e))
  | ⟨1, _⟩ => exact congrArg _ ((v46_at1 P V e).trans (v40_at P V e))
  | ⟨2, _⟩ => exact congrArg _ ((v46_at2 P V e).trans (v41_at P V e))
  | ⟨3, _⟩ => exact congrArg _ ((v46_at3 P V e).trans (v42_at P V e))
  | ⟨4, _⟩ => exact congrArg _ ((v46_at4 P V e).trans (v43_at P V e))
  | ⟨5, _⟩ => exact congrArg _ ((v46_at5 P V e).trans (v44_at V e))
  | ⟨6, _⟩ => exact congrArg _ ((v46_at6 P V e).trans (v45_at V e))

/-! ## The scatter -/

/-- The scatter indices: row e holds particle e's bin. -/
theorem v51_at (P : S16000000x3.Idx → EReal) (e : Fin 16000000) :
    val_main_v51 (F := Ideal) P (rowAt e) = binOf P e := by
  have h : idx_main_v51 (rowAt e) = ix1 e := by
    funext a
    match a with
    | ⟨0, _⟩ => rfl
  rw [val_main_v51_apply, h, v25_at]
  rfl

/-- The operand is the zero table. -/
theorem v50_at (b : Fin 50) (f : Fin 7) : val_main_v50 (F := Ideal) (ix2 b f) = 0 := by
  rw [val_main_v50_apply]
  exact zeroW_eq

/-- The scatter's dimension numbers are those of a scatter of rows, and on the extended reals the host's
    accumulating scatter is the exact sum. -/
theorem v52_eq (P V : S16000000x3.Idx → EReal) (M : S16000000.Idx → EReal) :
    val_main_v52 (F := Ideal) P V M
      = Ideal.hostScatterAdd (rowDims 50 7 16000000 scatter_S50x7_S16000000x1_S16000000x7_1_0_0_1_wf)
          (val_main_v50 (F := Ideal)) (val_main_v51 (F := Ideal) P) (val_main_v49 (F := Ideal) P V M) := rfl

/-- THE REFERENCE'S TABLE: the scatter result at (b, f) is moment f summed over the particles whose bin is b. -/
theorem table_eq (P V : S16000000x3.Idx → EReal) (M : S16000000.Idx → EReal) (b : Fin 50) (f : Fin 7) :
    val_main_v52 (F := Ideal) P V M (ix2 b f) = table P V M b f := by
  rw [v52_eq, hostScatterAdd_rows_apply, v50_at, zero_add]
  unfold table
  refine Finset.sum_congr (Finset.filter_congr fun e _ => ?_) fun n _ => ?_
  · rw [v51_at]
  · rw [v49_at, momentAlt_eq]
    rfl

end Cert.RefSide

end
-- ==== Proof.RefResult.lean ====
/-
  The reference program's run, read back: the fold of its 99 operations leaves in the result buffer the last
  operation's value as a function of the three arguments.

  Each operation writes one buffer from the buffers it reads and leaves every other buffer alone, so the contents
  after a list of operations are computed buffer by buffer. The list is cut into six pieces — 37 operations, 20,
  the join of the seven columns, 7, 33, the join of the six rows — and each piece is evaluated from ANY starting
  contents, given only what those contents hold in the buffers the piece reads: the pieces then chain, each one's
  conclusion the next one's hypothesis. The two joins are set apart because a join reads a family of buffers
  indexed by position: its operands are named one by one first.
-/
import proofs.«119832_j4741643894785_1_alg».proof.Proof.RefReadP
import Idealize.ShloMosaic.PureOps.Ideal

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-! ## The operations, cut into six pieces -/

/-- The first 37 operations: the coordinates, the radius, the bin, the mask, the masked bin and the masked mass. -/
abbrev W1 : List (HloOp τ sig (Elt F)) :=
  [ unary main_arg0 main_v0 ((extractStridedSlice S16000000x1 ![0, 0] · slices_S16000000x3_S16000000x1_0_0) : (⟨S16000000x3, .f32⟩ : BufTy).Contents (Elt F) → (⟨S16000000x1, .f32⟩ : BufTy).Contents (Elt F)),
    reshape main_v0 main_v1 rfl shapeCasts_S16000000x1_S16000000,
    unary main_arg0 main_v2 ((extractStridedSlice S16000000x1 ![0, 1] · slices_S16000000x3_S16000000x1_0_1) : (⟨S16000000x3, .f32⟩ : BufTy).Contents (Elt F) → (⟨S16000000x1, .f32⟩ : BufTy).Contents (Elt F)),
    reshape main_v2 main_v3 rfl shapeCasts_S16000000x1_S16000000,
    unary main_arg1 main_v4 ((extractStridedSlice S16000000x1 ![0, 0] · slices_S16000000x3_S16000000x1_0_0) : (⟨S16000000x3, .f32⟩ : BufTy).Contents (Elt F) → (⟨S16000000x1, .f32⟩ : BufTy).Contents (Elt F)),
    reshape main_v4 main_v5 rfl shapeCasts_S16000000x1_S16000000,
    unary main_arg1 main_v6 ((extractStridedSlice S16000000x1 ![0, 1] · slices_S16000000x3_S16000000x1_0_1) : (⟨S16000000x3, .f32⟩ : BufTy).Contents (Elt F) → (⟨S16000000x1, .f32⟩ : BufTy).Contents (Elt F)),
    reshape main_v6 main_v7 rfl shapeCasts_S16000000x1_S16000000,
    unary main_arg1 main_v8 ((extractStridedSlice S16000000x1 ![0, 2] · slices_S16000000x3_S16000000x1_0_2) : (⟨S16000000x3, .f32⟩ : BufTy).Contents (Elt F) → (⟨S16000000x1, .f32⟩ : BufTy).Contents (Elt F)),
    reshape main_v8 main_v9 rfl shapeCasts_S16000000x1_S16000000,
    binary main_v1 main_v1 main_v10 (mulf : (⟨S16000000, .f32⟩ : BufTy).Contents (Elt F) → (⟨S16000000, .f32⟩ : BufTy).Contents (Elt F) → (⟨S16000000, .f32⟩ : BufTy).Contents (Elt F)),
    binary main_v3 main_v3 main_v11 (mulf : (⟨S16000000, .f32⟩ : BufTy).Contents (Elt F) → (⟨S16000000, .f32⟩ : BufTy).Contents (Elt F) → (⟨S16000000, .f32⟩ : BufTy).Contents (Elt F)),
    binary main_v10 main_v11 main_v12 (addf : (⟨S16000000, .f32⟩ : BufTy).Contents (Elt F) → (⟨S16000000, .f32⟩ : BufTy).Contents (Elt F) → (⟨S16000000, .f32⟩ : BufTy).Contents (Elt F)),
    unary main_v12 main_v13 (Host.sqrt : (⟨S16000000, .f32⟩ : BufTy).Contents (Elt F) → (⟨S16000000, .f32⟩ : BufTy).Contents (Elt F)),
    nullary main_cst (constant S_ .f32 0x00000000#32),
    unary main_cst main_v14 (broadcastInDim S16000000 ![] bcast_S_S16000000 : (⟨S_, .f32⟩ : BufTy).Contents (Elt F) → (⟨S16000000, .f32⟩ : BufTy).Contents (Elt F)),
    binary main_v13 main_v14 main_v15 (subf : (⟨S16000000, .f32⟩ : BufTy).Contents (Elt F) → (⟨S16000000, .f32⟩ : BufTy).Contents (Elt F) → (⟨S16000000, .f32⟩ : BufTy).Contents (Elt F)),
    nullary main_cst_0 (constant S_ .f32 0x3E4CCCCD#32),
    unary main_cst_0 main_v16 (broadcastInDim S16000000 ![] bcast_S_S16000000 : (⟨S_, .f32⟩ : BufTy).Contents (Elt F) → (⟨S16000000, .f32⟩ : BufTy).Contents (Elt F)),
    binary main_v15 main_v16 main_v17 (Host.divf : (⟨S16000000, .f32⟩ : BufTy).Contents (Elt F) → (⟨S16000000, .f32⟩ : BufTy).Contents (Elt F) → (⟨S16000000, .f32⟩ : BufTy).Contents (Elt F)),
    unary main_v17 main_v18 (Host.floor : (⟨S16000000, .f32⟩ : BufTy).Contents (Elt F) → (⟨S16000000, .f32⟩ : BufTy).Contents (Elt F)),
    unary main_v18 main_v19 (fptosi 32 : (⟨S16000000, .f32⟩ : BufTy).Contents (Elt F) → (⟨S16000000, .i32⟩ : BufTy).Contents (Elt F)),
    nullary main_c (constantI S_ 32 0#32),
    unary main_c main_v20 (broadcastInDim S16000000 ![] bcast_S_S16000000 : (⟨S_, .i32⟩ : BufTy).Contents (Elt F) → (⟨S16000000, .i32⟩ : BufTy).Contents (Elt F)),
    binary main_v19 main_v20 main_v21 (cmpi .sge : (⟨S16000000, .i32⟩ : BufTy).Contents (Elt F) → (⟨S16000000, .i32⟩ : BufTy).Contents (Elt F) → (⟨S16000000, .i1⟩ : BufTy).Contents (Elt F)),
    nullary main_c_1 (constantI S_ 32 50#32),
    unary main_c_1 main_v22 (broadcastInDim S16000000 ![] bcast_S_S16000000 : (⟨S_, .i32⟩ : BufTy).Contents (Elt F) → (⟨S16000000, .i32⟩ : BufTy).Contents (Elt F)),
    binary main_v19 main_v22 main_v23 (cmpi .slt : (⟨S16000000, .i32⟩ : BufTy).Contents (Elt F) → (⟨S16000000, .i32⟩ : BufTy).Contents (Elt F) → (⟨S16000000, .i1⟩ : BufTy).Contents (Elt F)),
    binary main_v21 main_v23 main_v24 (andi : (⟨S16000000, .i1⟩ : BufTy).Contents (Elt F) → (⟨S16000000, .i1⟩ : BufTy).Contents (Elt F) → (⟨S16000000, .i1⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S16000000, .i32⟩) main_call0_v1) (broadcastInDim S16000000 ![] bcast_S_S16000000),
    TRef.ternary (TRef.of (T := ⟨S16000000, .i1⟩) main_v24) (TRef.of (T := ⟨S16000000, .i32⟩) main_v19) (TRef.of (T := ⟨S16000000, .i32⟩) main_call0_v1) (TRef.of (T := ⟨S16000000, .i32⟩) main_v25) select,
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S16000000, .f32⟩) main_call1_v1) (broadcastInDim S16000000 ![] bcast_S_S16000000),
    TRef.ternary (TRef.of (T := ⟨S16000000, .i1⟩) main_v24) (TRef.of (T := ⟨S16000000, .f32⟩) main_arg2) (TRef.of (T := ⟨S16000000, .f32⟩) main_call1_v1) (TRef.of (T := ⟨S16000000, .f32⟩) main_v26) select ]

/-- The next 20: the two velocities, their squares, and the seven columns. -/
abbrev W2 : List (HloOp τ sig (Elt F)) :=
  [ binary main_v1 main_v5 main_v27 (mulf : (⟨S16000000, .f32⟩ : BufTy).Contents (Elt F) → (⟨S16000000, .f32⟩ : BufTy).Contents (Elt F) → (⟨S16000000, .f32⟩ : BufTy).Contents (Elt F)),
    binary main_v3 main_v7 main_v28 (mulf : (⟨S16000000, .f32⟩ : BufTy).Contents (Elt F) → (⟨S16000000, .f32⟩ : BufTy).Contents (Elt F) → (⟨S16000000, .f32⟩ : BufTy).Contents (Elt F)),
    binary main_v27 main_v28 main_v29 (addf : (⟨S16000000, .f32⟩ : BufTy).Contents (Elt F) → (⟨S16000000, .f32⟩ : BufTy).Contents (Elt F) → (⟨S16000000, .f32⟩ : BufTy).Contents (Elt F)),
    binary main_v29 main_v13 main_v30 (Host.divf : (⟨S16000000, .f32⟩ : BufTy).Contents (Elt F) → (⟨S16000000, .f32⟩ : BufTy).Contents (Elt F) → (⟨S16000000, .f32⟩ : BufTy).Contents (Elt F)),
    binary main_v3 main_v5 main_v31 (mulf : (⟨S16000000, .f32⟩ : BufTy).Contents (Elt F) → (⟨S16000000, .f32⟩ : BufTy).Contents (Elt F) → (⟨S16000000, .f32⟩ : BufTy).Contents (Elt F)),
    binary main_v1 main_v7 main_v32 (mulf : (⟨S16000000, .f32⟩ : BufTy).Contents (Elt F) → (⟨S16000000, .f32⟩ : BufTy).Contents (Elt F) → (⟨S16000000, .f32⟩ : BufTy).Contents (Elt F)),
    binary main_v31 main_v32 main_v33 (subf : (⟨S16000000, .f32⟩ : BufTy).Contents (Elt F) → (⟨S16000000, .f32⟩ : BufTy).Contents (Elt F) → (⟨S16000000, .f32⟩ : BufTy).Contents (Elt F)),
    binary main_v33 main_v13 main_v34 (Host.divf : (⟨S16000000, .f32⟩ : BufTy).Contents (Elt F) → (⟨S16000000, .f32⟩ : BufTy).Contents (Elt F) → (⟨S16000000, .f32⟩ : BufTy).Contents (Elt F)),
    nullary main_cst_4 (constant S_ .f32 0x3F800000#32),
    unary main_cst_4 main_v35 (broadcastInDim S16000000 ![] bcast_S_S16000000 : (⟨S_, .f32⟩ : BufTy).Contents (Elt F) → (⟨S16000000, .f32⟩ : BufTy).Contents (Elt F)),
    binary main_v30 main_v30 main_v36 (mulf : (⟨S16000000, .f32⟩ : BufTy).Contents (Elt F) → (⟨S16000000, .f32⟩ : BufTy).Contents (Elt F) → (⟨S16000000, .f32⟩ : BufTy).Contents (Elt F)),
    binary main_v34 main_v34 main_v37 (mulf : (⟨S16000000, .f32⟩ : BufTy).Contents (Elt F) → (⟨S16000000, .f32⟩ : BufTy).Contents (Elt F) → (⟨S16000000, .f32⟩ : BufTy).Contents (Elt F)),
    binary main_v9 main_v9 main_v38 (mulf : (⟨S16000000, .f32⟩ : BufTy).Contents (Elt F) → (⟨S16000000, .f32⟩ : BufTy).Contents (Elt F) → (⟨S16000000, .f32⟩ : BufTy).Contents (Elt F)),
    unary main_v35 main_v39 (broadcastInDim S16000000x1 ![0] bcast_S16000000_S16000000x1_0 : (⟨S16000000, .f32⟩ : BufTy).Contents (Elt F) → (⟨S16000000x1, .f32⟩ : BufTy).Contents (Elt F)),
    unary main_v30 main_v40 (broadcastInDim S16000000x1 ![0] bcast_S16000000_S16000000x1_0 : (⟨S16000000, .f32⟩ : BufTy).Contents (Elt F) → (⟨S16000000x1, .f32⟩ : BufTy).Contents (Elt F)),
    unary main_v36 main_v41 (broadcastInDim S16000000x1 ![0] bcast_S16000000_S16000000x1_0 : (⟨S16000000, .f32⟩ : BufTy).Contents (Elt F) → (⟨S16000000x1, .f32⟩ : BufTy).Contents (Elt F)),
    unary main_v34 main_v42 (broadcastInDim S16000000x1 ![0] bcast_S16000000_S16000000x1_0 : (⟨S16000000, .f32⟩ : BufTy).Contents (Elt F) → (⟨S16000000x1, .f32⟩ : BufTy).Contents (Elt F)),
    unary main_v37 main_v43 (broadcastInDim S16000000x1 ![0] bcast_S16000000_S16000000x1_0 : (⟨S16000000, .f32⟩ : BufTy).Contents (Elt F) → (⟨S16000000x1, .f32⟩ : BufTy).Contents (Elt F)),
    unary main_v9 main_v44 (broadcastInDim S16000000x1 ![0] bcast_S16000000_S16000000x1_0 : (⟨S16000000, .f32⟩ : BufTy).Contents (Elt F) → (⟨S16000000x1, .f32⟩ : BufTy).Contents (Elt F)),
    unary main_v38 main_v45 (broadcastInDim S16000000x1 ![0] bcast_S16000000_S16000000x1_0 : (⟨S16000000, .f32⟩ : BufTy).Contents (Elt F) → (⟨S16000000x1, .f32⟩ : BufTy).Contents (Elt F)) ]

/-- The join of the seven columns. -/
abbrev N1 : HloOp τ sig (Elt F) :=
  nary ![main_v39, main_v40, main_v41, main_v42, main_v43, main_v44, main_v45] main_v46 (fun u => concatenate S16000000x7 1 [⟨S16000000x1, u 0⟩, ⟨S16000000x1, u 1⟩, ⟨S16000000x1, u 2⟩, ⟨S16000000x1, u 3⟩, ⟨S16000000x1, u 4⟩, ⟨S16000000x1, u 5⟩, ⟨S16000000x1, u 6⟩] concatenates_S16000000x1_S16000000x1_S16000000x1_S16000000x1_S16000000x1_S16000000x1_S16000000x1_S16000000x7_d1)

/-- The next 7: the weighted columns, the zero table, the scatter indices and the scatter. -/
abbrev W3 : List (HloOp τ sig (Elt F)) :=
  [ unary main_v26 main_v47 (broadcastInDim S16000000x1 ![0] bcast_S16000000_S16000000x1_0 : (⟨S16000000, .f32⟩ : BufTy).Contents (Elt F) → (⟨S16000000x1, .f32⟩ : BufTy).Contents (Elt F)),
    unary main_v47 main_v48 (broadcastInDim S16000000x7 ![0, 1] bcast_S16000000x1_S16000000x7_0_1 : (⟨S16000000x1, .f32⟩ : BufTy).Contents (Elt F) → (⟨S16000000x7, .f32⟩ : BufTy).Contents (Elt F)),
    binary main_v48 main_v46 main_v49 (mulf : (⟨S16000000x7, .f32⟩ : BufTy).Contents (Elt F) → (⟨S16000000x7, .f32⟩ : BufTy).Contents (Elt F) → (⟨S16000000x7, .f32⟩ : BufTy).Contents (Elt F)),
    nullary main_cst_5 (constant S_ .f32 0x00000000#32),
    unary main_cst_5 main_v50 (broadcastInDim S50x7 ![] bcast_S_S50x7 : (⟨S_, .f32⟩ : BufTy).Contents (Elt F) → (⟨S50x7, .f32⟩ : BufTy).Contents (Elt F)),
    unary main_v25 main_v51 (broadcastInDim S16000000x1 ![0] bcast_S16000000_S16000000x1_0 : (⟨S16000000, .i32⟩ : BufTy).Contents (Elt F) → (⟨S16000000x1, .i32⟩ : BufTy).Contents (Elt F)),
    ternary main_v50 main_v51 main_v49 main_v52 ((fun x i u => Host.scatterAdd scatter_S50x7_S16000000x1_S16000000x7_1_0_0_1 x i u) : (⟨S50x7, .f32⟩ : BufTy).Contents (Elt F) → (⟨S16000000x1, .i32⟩ : BufTy).Contents (Elt F) → (⟨S16000000x7, .f32⟩ : BufTy).Contents (Elt F) → (⟨S50x7, .f32⟩ : BufTy).Contents (Elt F)) ]

/-- The next 33: from the table to the six rows. -/
abbrev W4 : List (HloOp τ sig (Elt F)) :=
  [ unary main_v52 main_v53 ((extractStridedSlice S50x1 ![0, 0] · slices_S50x7_S50x1_0_0) : (⟨S50x7, .f32⟩ : BufTy).Contents (Elt F) → (⟨S50x1, .f32⟩ : BufTy).Contents (Elt F)),
    reshape main_v53 main_v54 rfl shapeCasts_S50x1_S50,
    unary main_v52 main_v55 ((extractStridedSlice S50x6 ![0, 1] · slices_S50x7_S50x6_0_1) : (⟨S50x7, .f32⟩ : BufTy).Contents (Elt F) → (⟨S50x6, .f32⟩ : BufTy).Contents (Elt F)),
    unary main_v54 main_v56 (broadcastInDim S50x1 ![0] bcast_S50_S50x1_0 : (⟨S50, .f32⟩ : BufTy).Contents (Elt F) → (⟨S50x1, .f32⟩ : BufTy).Contents (Elt F)),
    unary main_v56 main_v57 (broadcastInDim S50x6 ![0, 1] bcast_S50x1_S50x6_0_1 : (⟨S50x1, .f32⟩ : BufTy).Contents (Elt F) → (⟨S50x6, .f32⟩ : BufTy).Contents (Elt F)),
    binary main_v55 main_v57 main_v58 (Host.divf : (⟨S50x6, .f32⟩ : BufTy).Contents (Elt F) → (⟨S50x6, .f32⟩ : BufTy).Contents (Elt F) → (⟨S50x6, .f32⟩ : BufTy).Contents (Elt F)),
    unary main_v58 main_v59 ((extractStridedSlice S50x1 ![0, 0] · slices_S50x6_S50x1_0_0) : (⟨S50x6, .f32⟩ : BufTy).Contents (Elt F) → (⟨S50x1, .f32⟩ : BufTy).Contents (Elt F)),
    reshape main_v59 main_v60 rfl shapeCasts_S50x1_S50,
    unary main_v58 main_v61 ((extractStridedSlice S50x1 ![0, 1] · slices_S50x6_S50x1_0_1) : (⟨S50x6, .f32⟩ : BufTy).Contents (Elt F) → (⟨S50x1, .f32⟩ : BufTy).Contents (Elt F)),
    reshape main_v61 main_v62 rfl shapeCasts_S50x1_S50,
    unary main_v58 main_v63 ((extractStridedSlice S50x1 ![0, 2] · slices_S50x6_S50x1_0_2) : (⟨S50x6, .f32⟩ : BufTy).Contents (Elt F) → (⟨S50x1, .f32⟩ : BufTy).Contents (Elt F)),
    reshape main_v63 main_v64 rfl shapeCasts_S50x1_S50,
    unary main_v58 main_v65 ((extractStridedSlice S50x1 ![0, 3] · slices_S50x6_S50x1_0_3) : (⟨S50x6, .f32⟩ : BufTy).Contents (Elt F) → (⟨S50x1, .f32⟩ : BufTy).Contents (Elt F)),
    reshape main_v65 main_v66 rfl shapeCasts_S50x1_S50,
    unary main_v58 main_v67 ((extractStridedSlice S50x1 ![0, 4] · slices_S50x6_S50x1_0_4) : (⟨S50x6, .f32⟩ : BufTy).Contents (Elt F) → (⟨S50x1, .f32⟩ : BufTy).Contents (Elt F)),
    reshape main_v67 main_v68 rfl shapeCasts_S50x1_S50,
    unary main_v58 main_v69 ((extractStridedSlice S50x1 ![0, 5] · slices_S50x6_S50x1_0_5) : (⟨S50x6, .f32⟩ : BufTy).Contents (Elt F) → (⟨S50x1, .f32⟩ : BufTy).Contents (Elt F)),
    reshape main_v69 main_v70 rfl shapeCasts_S50x1_S50,
    binary main_v60 main_v60 main_v71 (mulf : (⟨S50, .f32⟩ : BufTy).Contents (Elt F) → (⟨S50, .f32⟩ : BufTy).Contents (Elt F) → (⟨S50, .f32⟩ : BufTy).Contents (Elt F)),
    binary main_v62 main_v71 main_v72 (subf : (⟨S50, .f32⟩ : BufTy).Contents (Elt F) → (⟨S50, .f32⟩ : BufTy).Contents (Elt F) → (⟨S50, .f32⟩ : BufTy).Contents (Elt F)),
    unary main_v72 main_v73 (Host.sqrt : (⟨S50, .f32⟩ : BufTy).Contents (Elt F) → (⟨S50, .f32⟩ : BufTy).Contents (Elt F)),
    binary main_v64 main_v64 main_v74 (mulf : (⟨S50, .f32⟩ : BufTy).Contents (Elt F) → (⟨S50, .f32⟩ : BufTy).Contents (Elt F) → (⟨S50, .f32⟩ : BufTy).Contents (Elt F)),
    binary main_v66 main_v74 main_v75 (subf : (⟨S50, .f32⟩ : BufTy).Contents (Elt F) → (⟨S50, .f32⟩ : BufTy).Contents (Elt F) → (⟨S50, .f32⟩ : BufTy).Contents (Elt F)),
    unary main_v75 main_v76 (Host.sqrt : (⟨S50, .f32⟩ : BufTy).Contents (Elt F) → (⟨S50, .f32⟩ : BufTy).Contents (Elt F)),
    binary main_v68 main_v68 main_v77 (mulf : (⟨S50, .f32⟩ : BufTy).Contents (Elt F) → (⟨S50, .f32⟩ : BufTy).Contents (Elt F) → (⟨S50, .f32⟩ : BufTy).Contents (Elt F)),
    binary main_v70 main_v77 main_v78 (subf : (⟨S50, .f32⟩ : BufTy).Contents (Elt F) → (⟨S50, .f32⟩ : BufTy).Contents (Elt F) → (⟨S50, .f32⟩ : BufTy).Contents (Elt F)),
    unary main_v78 main_v79 (Host.sqrt : (⟨S50, .f32⟩ : BufTy).Contents (Elt F) → (⟨S50, .f32⟩ : BufTy).Contents (Elt F)),
    unary main_v64 main_v80 (broadcastInDim S1x50 ![1] bcast_S50_S1x50_1 : (⟨S50, .f32⟩ : BufTy).Contents (Elt F) → (⟨S1x50, .f32⟩ : BufTy).Contents (Elt F)),
    unary main_v76 main_v81 (broadcastInDim S1x50 ![1] bcast_S50_S1x50_1 : (⟨S50, .f32⟩ : BufTy).Contents (Elt F) → (⟨S1x50, .f32⟩ : BufTy).Contents (Elt F)),
    unary main_v60 main_v82 (broadcastInDim S1x50 ![1] bcast_S50_S1x50_1 : (⟨S50, .f32⟩ : BufTy).Contents (Elt F) → (⟨S1x50, .f32⟩ : BufTy).Contents (Elt F)),
    unary main_v73 main_v83 (broadcastInDim S1x50 ![1] bcast_S50_S1x50_1 : (⟨S50, .f32⟩ : BufTy).Contents (Elt F) → (⟨S1x50, .f32⟩ : BufTy).Contents (Elt F)),
    unary main_v68 main_v84 (broadcastInDim S1x50 ![1] bcast_S50_S1x50_1 : (⟨S50, .f32⟩ : BufTy).Contents (Elt F) → (⟨S1x50, .f32⟩ : BufTy).Contents (Elt F)),
    unary main_v79 main_v85 (broadcastInDim S1x50 ![1] bcast_S50_S1x50_1 : (⟨S50, .f32⟩ : BufTy).Contents (Elt F) → (⟨S1x50, .f32⟩ : BufTy).Contents (Elt F)) ]

/-- The join of the six rows. -/
abbrev N2 : HloOp τ sig (Elt F) :=
  nary ![main_v80, main_v81, main_v82, main_v83, main_v84, main_v85] main_v86 (fun u => concatenate S6x50 0 [⟨S1x50, u 0⟩, ⟨S1x50, u 1⟩, ⟨S1x50, u 2⟩, ⟨S1x50, u 3⟩, ⟨S1x50, u 4⟩, ⟨S1x50, u 5⟩] concatenates_S1x50_S1x50_S1x50_S1x50_S1x50_S1x50_S6x50_d0)

set_option maxRecDepth 8192 in
set_option maxHeartbeats 4000000 in
/-- The program's list of operations is the six pieces in order. -/
theorem ops_cut : (ValueP.ops : List (HloOp τ sig (Elt F))) = W1 ++ (W2 ++ (N1 :: (W3 ++ (W4 ++ [N2])))) := rfl

/-! ## The first piece, from any contents: each buffer read later holds its value of the arguments -/

set_option maxRecDepth 8192 in
set_option maxHeartbeats 4000000 in
theorem W1_v1 (V : Valuation τ sig (Elt F)) :
    after W1 V (Proc.devRef .tc main_v1) = ReadP.val_main_v1 (F := F) (V (Proc.devRef .tc main_arg0)) := by
  after_results_simp <;> rfl

set_option maxRecDepth 8192 in
set_option maxHeartbeats 4000000 in
theorem W1_v3 (V : Valuation τ sig (Elt F)) :
    after W1 V (Proc.devRef .tc main_v3) = ReadP.val_main_v3 (F := F) (V (Proc.devRef .tc main_arg0)) := by
  after_results_simp <;> rfl

set_option maxRecDepth 8192 in
set_option maxHeartbeats 4000000 in
theorem W1_v5 (V : Valuation τ sig (Elt F)) :
    after W1 V (Proc.devRef .tc main_v5) = ReadP.val_main_v5 (F := F) (V (Proc.devRef .tc main_arg1)) := by
  after_results_simp <;> rfl

set_option maxRecDepth 8192 in
set_option maxHeartbeats 4000000 in
theorem W1_v7 (V : Valuation τ sig (Elt F)) :
    after W1 V (Proc.devRef .tc main_v7) = ReadP.val_main_v7 (F := F) (V (Proc.devRef .tc main_arg1)) := by
  after_results_simp <;> rfl

set_option maxRecDepth 8192 in
set_option maxHeartbeats 4000000 in
theorem W1_v9 (V : Valuation τ sig (Elt F)) :
    after W1 V (Proc.devRef .tc main_v9) = ReadP.val_main_v9 (F := F) (V (Proc.devRef .tc main_arg1)) := by
  after_results_simp <;> rfl

set_option maxRecDepth 8192 in
set_option maxHeartbeats 4000000 in
theorem W1_v13 (V : Valuation τ sig (Elt F)) :
    after W1 V (Proc.devRef .tc main_v13) = ReadP.val_main_v13 (F := F) (V (Proc.devRef .tc main_arg0)) := by
  after_results_simp <;> rfl

set_option maxRecDepth 8192 in
set_option maxHeartbeats 4000000 in
theorem W1_v25 (V : Valuation τ sig (Elt F)) :
    after W1 V (Proc.devRef .tc main_v25) = ReadP.val_main_v25 (F := F) (V (Proc.devRef .tc main_arg0)) := by
  after_results_simp <;> rfl

set_option maxRecDepth 8192 in
set_option maxHeartbeats 4000000 in
theorem W1_v26 (V : Valuation τ sig (Elt F)) :
    after W1 V (Proc.devRef .tc main_v26) = ReadP.val_main_v26 (F := F) (V (Proc.devRef .tc main_arg0)) (V (Proc.devRef .tc main_arg2)) := by
  after_results_simp <;> rfl

/-! ## The second piece: the seven columns, from contents that hold the coordinates and the radius -/

set_option maxRecDepth 8192 in
set_option maxHeartbeats 4000000 in
theorem W2_v39 (V : Valuation τ sig (Elt F)) :
    after W2 V (Proc.devRef .tc main_v39) = ReadP.val_main_v39 (F := F) := by
  after_results_simp
  rfl

set_option maxRecDepth 8192 in
set_option maxHeartbeats 4000000 in
theorem W2_v40 (V : Valuation τ sig (Elt F)) (x0 x1 : (⟨S16000000x3, .f32⟩ : BufTy).Contents (Elt F))
    (h1 : V (Proc.devRef .tc main_v1) = ReadP.val_main_v1 (F := F) x0)
    (h3 : V (Proc.devRef .tc main_v3) = ReadP.val_main_v3 (F := F) x0)
    (h5 : V (Proc.devRef .tc main_v5) = ReadP.val_main_v5 (F := F) x1)
    (h7 : V (Proc.devRef .tc main_v7) = ReadP.val_main_v7 (F := F) x1)
    (h13 : V (Proc.devRef .tc main_v13) = ReadP.val_main_v13 (F := F) x0) :
    after W2 V (Proc.devRef .tc main_v40) = ReadP.val_main_v40 (F := F) x0 x1 := by
  after_results_simp
  simp only [h1, h3, h5, h7, h13]
  rfl

set_option maxRecDepth 8192 in
set_option maxHeartbeats 4000000 in
theorem W2_v41 (V : Valuation τ sig (Elt F)) (x0 x1 : (⟨S16000000x3, .f32⟩ : BufTy).Contents (Elt F))
    (h1 : V (Proc.devRef .tc main_v1) = ReadP.val_main_v1 (F := F) x0)
    (h3 : V (Proc.devRef .tc main_v3) = ReadP.val_main_v3 (F := F) x0)
    (h5 : V (Proc.devRef .tc main_v5) = ReadP.val_main_v5 (F := F) x1)
    (h7 : V (Proc.devRef .tc main_v7) = ReadP.val_main_v7 (F := F) x1)
    (h13 : V (Proc.devRef .tc main_v13) = ReadP.val_main_v13 (F := F) x0) :
    after W2 V (Proc.devRef .tc main_v41) = ReadP.val_main_v41 (F := F) x0 x1 := by
  after_results_simp
  simp only [h1, h3, h5, h7, h13]
  rfl

set_option maxRecDepth 8192 in
set_option maxHeartbeats 4000000 in
theorem W2_v42 (V : Valuation τ sig (Elt F)) (x0 x1 : (⟨S16000000x3, .f32⟩ : BufTy).Contents (Elt F))
    (h1 : V (Proc.devRef .tc main_v1) = ReadP.val_main_v1 (F := F) x0)
    (h3 : V (Proc.devRef .tc main_v3) = ReadP.val_main_v3 (F := F) x0)
    (h5 : V (Proc.devRef .tc main_v5) = ReadP.val_main_v5 (F := F) x1)
    (h7 : V (Proc.devRef .tc main_v7) = ReadP.val_main_v7 (F := F) x1)
    (h13 : V (Proc.devRef .tc main_v13) = ReadP.val_main_v13 (F := F) x0) :
    after W2 V (Proc.devRef .tc main_v42) = ReadP.val_main_v42 (F := F) x0 x1 := by
  after_results_simp
  simp only [h1, h3, h5, h7, h13]
  rfl

set_option maxRecDepth 8192 in
set_option maxHeartbeats 4000000 in
theorem W2_v43 (V : Valuation τ sig (Elt F)) (x0 x1 : (⟨S16000000x3, .f32⟩ : BufTy).Contents (Elt F))
    (h1 : V (Proc.devRef .tc main_v1) = ReadP.val_main_v1 (F := F) x0)
    (h3 : V (Proc.devRef .tc main_v3) = ReadP.val_main_v3 (F := F) x0)
    (h5 : V (Proc.devRef .tc main_v5) = ReadP.val_main_v5 (F := F) x1)
    (h7 : V (Proc.devRef .tc main_v7) = ReadP.val_main_v7 (F := F) x1)
    (h13 : V (Proc.devRef .tc main_v13) = ReadP.val_main_v13 (F := F) x0) :
    after W2 V (Proc.devRef .tc main_v43) = ReadP.val_main_v43 (F := F) x0 x1 := by
  after_results_simp
  simp only [h1, h3, h5, h7, h13]
  rfl

set_option maxRecDepth 8192 in
set_option maxHeartbeats 4000000 in
theorem W2_v44 (V : Valuation τ sig (Elt F)) (x1 : (⟨S16000000x3, .f32⟩ : BufTy).Contents (Elt F))
    (h9 : V (Proc.devRef .tc main_v9) = ReadP.val_main_v9 (F := F) x1) :
    after W2 V (Proc.devRef .tc main_v44) = ReadP.val_main_v44 (F := F) x1 := by
  after_results_simp
  simp only [h9]
  rfl

set_option maxRecDepth 8192 in
set_option maxHeartbeats 4000000 in
theorem W2_v45 (V : Valuation τ sig (Elt F)) (x1 : (⟨S16000000x3, .f32⟩ : BufTy).Contents (Elt F))
    (h9 : V (Proc.devRef .tc main_v9) = ReadP.val_main_v9 (F := F) x1) :
    after W2 V (Proc.devRef .tc main_v45) = ReadP.val_main_v45 (F := F) x1 := by
  after_results_simp
  simp only [h9]
  rfl

set_option maxRecDepth 8192 in
set_option maxHeartbeats 4000000 in
/-- The second piece leaves this buffer alone. -/
theorem W2_keep25 (V : Valuation τ sig (Elt F)) : after W2 V (Proc.devRef .tc main_v25) = V (Proc.devRef .tc main_v25) := by
  after_results_simp

set_option maxRecDepth 8192 in
set_option maxHeartbeats 4000000 in
/-- The second piece leaves this buffer alone. -/
theorem W2_keep26 (V : Valuation τ sig (Elt F)) : after W2 V (Proc.devRef .tc main_v26) = V (Proc.devRef .tc main_v26) := by
  after_results_simp

/-! ## The join of the seven columns -/

set_option maxRecDepth 8192 in
set_option maxHeartbeats 4000000 in
theorem N1_eval (V : Valuation τ sig (Elt F)) (x0 x1 : (⟨S16000000x3, .f32⟩ : BufTy).Contents (Elt F))
    (h39 : V (Proc.devRef .tc main_v39) = ReadP.val_main_v39 (F := F))
    (h40 : V (Proc.devRef .tc main_v40) = ReadP.val_main_v40 (F := F) x0 x1)
    (h41 : V (Proc.devRef .tc main_v41) = ReadP.val_main_v41 (F := F) x0 x1)
    (h42 : V (Proc.devRef .tc main_v42) = ReadP.val_main_v42 (F := F) x0 x1)
    (h43 : V (Proc.devRef .tc main_v43) = ReadP.val_main_v43 (F := F) x0 x1)
    (h44 : V (Proc.devRef .tc main_v44) = ReadP.val_main_v44 (F := F) x1)
    (h45 : V (Proc.devRef .tc main_v45) = ReadP.val_main_v45 (F := F) x1) :
    (N1 : HloOp τ sig (Elt F)).result V (Proc.devRef .tc main_v46) = ReadP.val_main_v46 (F := F) x0 x1 := by
  rw [nary_result]
  dsimp only [Matrix.cons_val]
  rw [h39, h40, h41, h42, h43, h44, h45]
  rfl

set_option maxRecDepth 8192 in
set_option maxHeartbeats 4000000 in
/-- The join leaves this buffer alone. -/
theorem N1_keep25 (V : Valuation τ sig (Elt F)) : (N1 : HloOp τ sig (Elt F)).result V (Proc.devRef .tc main_v25) = V (Proc.devRef .tc main_v25) := by
  after_results_simp

set_option maxRecDepth 8192 in
set_option maxHeartbeats 4000000 in
/-- The join leaves this buffer alone. -/
theorem N1_keep26 (V : Valuation τ sig (Elt F)) : (N1 : HloOp τ sig (Elt F)).result V (Proc.devRef .tc main_v26) = V (Proc.devRef .tc main_v26) := by
  after_results_simp

/-! ## The third piece: the scatter, from contents that hold the columns' join, the masked bins and the masked masses -/

set_option maxRecDepth 8192 in
set_option maxHeartbeats 4000000 in
theorem W3_eval (V : Valuation τ sig (Elt F)) (x0 x1 : (⟨S16000000x3, .f32⟩ : BufTy).Contents (Elt F)) (x2 : (⟨S16000000, .f32⟩ : BufTy).Contents (Elt F))
    (h46 : V (Proc.devRef .tc main_v46) = ReadP.val_main_v46 (F := F) x0 x1)
    (h25 : V (Proc.devRef .tc main_v25) = ReadP.val_main_v25 (F := F) x0)
    (h26 : V (Proc.devRef .tc main_v26) = ReadP.val_main_v26 (F := F) x0 x2) :
    after W3 V (Proc.devRef .tc main_v52) = ReadP.val_main_v52 (F := F) x0 x1 x2 := by
  after_results_simp
  simp only [h46, h25, h26]
  rfl

/-! ## The fourth piece: the six rows, from contents that hold the table -/

set_option maxRecDepth 8192 in
set_option maxHeartbeats 4000000 in
theorem W4_v80 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v80) = ReadP.val_main_v80 (F := F) x0 x1 x2 := by
  after_results_simp
  simp only [h52]
  rfl

set_option maxRecDepth 8192 in
set_option maxHeartbeats 4000000 in
theorem W4_v81 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v81) = ReadP.val_main_v81 (F := F) x0 x1 x2 := by
  after_results_simp
  simp only [h52]
  rfl

set_option maxRecDepth 8192 in
set_option maxHeartbeats 4000000 in
theorem W4_v82 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v82) = ReadP.val_main_v82 (F := F) x0 x1 x2 := by
  after_results_simp
  simp only [h52]
  rfl

set_option maxRecDepth 8192 in
set_option maxHeartbeats 4000000 in
theorem W4_v83 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v83) = ReadP.val_main_v83 (F := F) x0 x1 x2 := by
  after_results_simp
  simp only [h52]
  rfl

set_option maxRecDepth 8192 in
set_option maxHeartbeats 4000000 in
theorem W4_v84 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v84) = ReadP.val_main_v84 (F := F) x0 x1 x2 := by
  after_results_simp
  simp only [h52]
  rfl

set_option maxRecDepth 8192 in
set_option maxHeartbeats 4000000 in
theorem W4_v85 (V : Valuation τ sig (Elt F)) (x0 x1 : (⟨S16000000x3, .f32⟩ : BufTy).Contents (Elt F)) (x2 : (⟨S16000000, .f32⟩ : BufTy).Contents (Elt F))
    (h52 : V (Proc.devRef .tc main_v52) = ReadP.val_main_v52 (F := F) x0 x1 x2) :
    after W4 V (Proc.devRef .tc main_v85) = ReadP.val_main_v85 (F := F) x0 x1 x2 := by
  after_results_simp
  simp only [h52]
  rfl

/-! ## The join of the six rows -/

set_option maxRecDepth 8192 in
set_option maxHeartbeats 4000000 in
theorem N2_eval (V : Valuation τ sig (Elt F)) (x0 x1 : (⟨S16000000x3, .f32⟩ : BufTy).Contents (Elt F)) (x2 : (⟨S16000000, .f32⟩ : BufTy).Contents (Elt F))
    (h80 : V (Proc.devRef .tc main_v80) = ReadP.val_main_v80 (F := F) x0 x1 x2)
    (h81 : V (Proc.devRef .tc main_v81) = ReadP.val_main_v81 (F := F) x0 x1 x2)
    (h82 : V (Proc.devRef .tc main_v82) = ReadP.val_main_v82 (F := F) x0 x1 x2)
    (h83 : V (Proc.devRef .tc main_v83) = ReadP.val_main_v83 (F := F) x0 x1 x2)
    (h84 : V (Proc.devRef .tc main_v84) = ReadP.val_main_v84 (F := F) x0 x1 x2)
    (h85 : V (Proc.devRef .tc main_v85) = ReadP.val_main_v85 (F := F) x0 x1 x2) :
    (N2 : HloOp τ sig (Elt F)).result V (Proc.devRef .tc main_v86) = ReadP.val_main_v86 (F := F) x0 x1 x2 := by
  rw [nary_result]
  dsimp only [Matrix.cons_val]
  rw [h80, h81, h82, h83, h84, h85]
  rfl

/-! ## The whole program -/

set_option maxRecDepth 8192 in
set_option maxHeartbeats 4000000 in
/-- THE RESULT: what the fold of the 99 operations leaves in the result buffer is the last operation's value of the
    three arguments. -/
theorem result_eq (m : (ℓ : Loc nD τ sig) → Buf (Elt F) ℓ) (c : Dev nD) :
    Cert.ReferenceIdeal.ValueP.res_main_v86 (F := F) m c
      = ReadP.val_main_v86 (F := F) (m ((c.tc : Thread nD τ).loc main_arg0)) (m ((c.tc : Thread nD τ).loc main_arg1))
          (m ((c.tc : Thread nD τ).loc main_arg2)) := by
  unfold Cert.ReferenceIdeal.ValueP.res_main_v86
  rw [ops_cut, after_append, after_append, after_cons, after_append, after_append, after_cons, after_nil]
  have h1 := W1_v1 (F := F) (launchContents m c)
  have h3 := W1_v3 (F := F) (launchContents m c)
  have h5 := W1_v5 (F := F) (launchContents m c)
  have h7 := W1_v7 (F := F) (launchContents m c)
  have h9 := W1_v9 (F := F) (launchContents m c)
  have h13 := W1_v13 (F := F) (launchContents m c)
  have h25 := W1_v25 (F := F) (launchContents m c)
  have h26 := W1_v26 (F := F) (launchContents m c)
  have h39 := W2_v39 (F := F) (after W1 (launchContents m c))
  have h40 := W2_v40 _ _ _ h1 h3 h5 h7 h13
  have h41 := W2_v41 _ _ _ h1 h3 h5 h7 h13
  have h42 := W2_v42 _ _ _ h1 h3 h5 h7 h13
  have h43 := W2_v43 _ _ _ h1 h3 h5 h7 h13
  have h44 := W2_v44 _ _ h9
  have h45 := W2_v45 _ _ h9
  have k25 := (W2_keep25 _).trans h25
  have k26 := (W2_keep26 _).trans h26
  have h46 := N1_eval _ _ _ h39 h40 h41 h42 h43 h44 h45
  have j25 := (N1_keep25 _).trans k25
  have j26 := (N1_keep26 _).trans k26
  have h52 := W3_eval _ _ _ _ h46 j25 j26
  have h80 := W4_v80 _ _ _ _ h52
  have h81 := W4_v81 _ _ _ _ h52
  have h82 := W4_v82 _ _ _ _ h52
  have h83 := W4_v83 _ _ _ _ h52
  have h84 := W4_v84 _ _ _ _ h52
  have h85 := W4_v85 _ _ _ _ h52
  exact N2_eval _ _ _ _ h80 h81 h82 h83 h84 h85

end Cert.RefSide

end
-- ==== Proof.lean ====
/-
  The five claims about the disk-kinematics kernel. The kernel bins 16,000,000 particles by cylindrical radius into
  50 bins of width 0.2, masking those that fall outside, and for each bin sums the mass and six mass-weighted velocity
  moments: it does so 25,600 particles at a time, as the product of a one-hot matrix (bin by particle) with the
  seven moments (moment by particle), added into a 56 x 7 table that is cleared at the first tile. The reference
  scatter-adds the same seven numbers per particle into a 50 x 7 table in one operation. Both then turn the table
  into means and dispersions by the same arithmetic.

  Each of the two printed kernels runs to its end with its arguments unchanged (the two frames, proved once for any
  float instance in Proof/Ideal and Proof/Words); the reference is a straight line of host operations and its frame is
  its run with the result dropped; nothing was rewritten by the idealization, so there is nothing to preserve; and
  on the extended reals the two results are equal entry by entry: rows 0 … 49 of the kernel's table and the
  reference's table are both the sum, over the particles of a bin, of the particle's moments (a sum taken tile by tile
  against a sum taken at once; the products (w·v)·v against w·(v·v); w against w·1), and the arithmetic after the
  table is one and the same function. No step needs an entry to be finite, so the precondition is never opened.
-/
import proofs.«119832_j4741643894785_1_alg».proof.Defs
import proofs.«119832_j4741643894785_1_alg».proof.Proof.Words.HistFrame
import proofs.«119832_j4741643894785_1_alg».proof.Proof.Ideal.Result
import proofs.«119832_j4741643894785_1_alg».proof.Proof.RefRunP
import proofs.«119832_j4741643894785_1_alg».proof.Proof.RefReadP
import proofs.«119832_j4741643894785_1_alg».proof.Proof.RefTable
import proofs.«119832_j4741643894785_1_alg».proof.Proof.Tail
import proofs.«119832_j4741643894785_1_alg».proof.Proof.RefResult
import proofs.«119832_j4741643894785_1_alg».proof.Proof.Gen.ReferenceIdeal
import proofs.«119832_j4741643894785_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_words : @Cert.frame_Kernel Cert.Kernel.Gen.facts Cert.Pre_finite_inputs.Gen.facts :=
  fun m ρ _ => Cert.Kernel.Hist.frame m ρ

theorem frame_ideal : @Cert.frame_KernelIdeal Cert.KernelIdeal.Gen.facts Cert.Pre_finite_inputs.Gen.facts :=
  fun m ρ _ => Cert.KernelIdeal.Hist.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The reference's scatter result, as a whole table, is the specification's. -/
theorem ref_table (P V : Cert.ReferenceIdeal.S16000000x3.Idx → EReal) (M : Cert.ReferenceIdeal.S16000000.Idx → EReal) :
    Cert.ReferenceIdeal.ReadP.val_main_v52 (F := Ideal) P V M = fun i => Cert.Disk.table P V M (i 0) (i 1) := by
  funext i
  have hi : i = Idealize.ShloMosaic.ValueIdx.ix2 (i 0) (i 1) := Idealize.ShloMosaic.ValueIdx.eq_ix2 (n0 := 50) (n1 := 7) i
  exact (congrArg (Cert.ReferenceIdeal.ReadP.val_main_v52 (F := Ideal) P V M) hi).trans (Cert.RefSide.table_eq P V M (i 0) (i 1))

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.RefSide.tail (fun i => Cert.Disk.table (Cert.KernelIdeal.Hist.posOf m c) (Cert.KernelIdeal.Hist.velOf m c)
    (Cert.KernelIdeal.Hist.massOf m c) (i 0) (i 1)), Cert.KernelIdeal.Hist.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.RefSide.result_eq, Cert.RefSide.val_main_v86_eq_tail, ref_table, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
